-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x2 : Shape := ⟨3, ![512, 512, 2]⟩
abbrev S512x512x64 : Shape := ⟨3, ![512, 512, 64]⟩
abbrev S512x512 : Shape := ⟨2, ![512, 512]⟩
abbrev S32x2 : Shape := ⟨2, ![32, 2]⟩
abbrev S32 : Shape := ⟨1, ![32]⟩
abbrev S256x32 : Shape := ⟨2, ![256, 32]⟩
abbrev S256x64 : Shape := ⟨2, ![256, 64]⟩
abbrev S256 : Shape := ⟨1, ![256]⟩
abbrev S_ : Shape := ⟨0, ![]⟩

class Facts : Prop where
  bcast_S_S512x512x2 : S_.BroadcastsInDim S512x512x2 (![] : Fin 0 → Fin S512x512x2.rank)
  reducesTo_S512x512x2_S_d0_1_2 : S512x512x2.ReducesTo [0, 1, 2] S_
  h_S_ : 0 < S_.numel
  bcast_S_S512x512x64 : S_.BroadcastsInDim S512x512x64 (![] : Fin 0 → Fin S512x512x64.rank)
  reducesTo_S512x512x64_S_d0_1_2 : S512x512x64.ReducesTo [0, 1, 2] S_
  bcast_S_S32x2 : S_.BroadcastsInDim S32x2 (![] : Fin 0 → Fin S32x2.rank)
  reducesTo_S32x2_S_d0_1 : S32x2.ReducesTo [0, 1] S_
  bcast_S_S32 : S_.BroadcastsInDim S32 (![] : Fin 0 → Fin S32.rank)
  reducesTo_S32_S_d0 : S32.ReducesTo [0] S_
  bcast_S_S256x32 : S_.BroadcastsInDim S256x32 (![] : Fin 0 → Fin S256x32.rank)
  reducesTo_S256x32_S_d0_1 : S256x32.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_arg9 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S32 .f32) (main_arg6 : FVec F S256x32 .f32) (main_arg7 : FVec F S256x64 .f32) (main_arg8 : FVec F S256 .f32) (main_arg9 : FVec F S256 .f32) (main_v13 : IVec S_ 1) (main_v16 : IVec S32x2 1) : IVec S_ 1 :=
  let main_c_5 : IVec S_ 1 := constantI S_ 1 1#1
  let main_v17 : IVec S_ 1 := (fun x v => Host.reduce IntOp.andi x v reducesTo_S32x2_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S256x32 .f32 := Host.absf main_arg6
  let main_cst_8 : FVec F S_ .f32 := constant S_ .f32 0x7F800000#32
  let main_v25 : FVec F S256x32 .f32 := broadcastInDim S256x32 ![] bcast_S_S256x32 main_cst_8
  let main_v26 : IVec S256x32 1 := cmpf .olt main_v24 main_v25
  let main_c_9 : IVec S_ 1 := constantI S_ 1 1#1
  let main_v27 : IVec S_ 1 := (fun x v => Host.reduce IntOp.andi x v reducesTo_S256x32_S_d0_1 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg8 main_arg9 main_v33

def fn {F : FTy → Type} [FloatOps F] (main_arg0 : FVec F S512x512x2 .f32) (main_arg1 : FVec F S512x512x64 .f32) (main_arg2 : FVec F S512x512x64 .f32) (main_arg3 : IVec S512x512 32) (main_arg4 : FVec F S32x2 .f32) (main_arg5 : FVec F S32 .f32) (main_arg6 : FVec F S256x32 .f32) (main_arg7 : FVec F S256x64 .f32) (main_arg8 : FVec F S256 .f32) (main_arg9 : FVec F S256 .f32) : IVec S_ 1 :=
  let main_v0 : FVec F S512x512x2 .f32 := Host.absf main_arg0
  let main_cst : FVec F S_ .f32 := constant S_ .f32 0x7F800000#32
  let main_v1 : FVec F S512x512x2 .f32 := broadcastInDim S512x512x2 ![] bcast_S_S512x512x2 main_cst
  let main_v2 : IVec S512x512x2 1 := cmpf .olt main_v0 main_v1
  let main_c : IVec S_ 1 := constantI S_ 1 1#1
  let main_v3 : IVec S_ 1 := (fun x v => Host.reduce IntOp.andi x v reducesTo_S512x512x2_S_d0_1_2 h_S_) main_v2 main_c
  let main_v4 : FVec F S512x512x64 .f32 := Host.absf main_arg1
  let main_cst_0 : FVec F S_ .f32 := constant S_ .f32 0x7F800000#32
  let main_v5 : FVec F S512x512x64 .f32 := broadcastInDim S512x512x64 ![] bcast_S_S512x512x64 main_cst_0
  let main_v6 : IVec S512x512x64 1 := cmpf .olt main_v4 main_v5
  let main_c_1 : IVec S_ 1 := constantI S_ 1 1#1
  let main_v7 : IVec S_ 1 := (fun x v => Host.reduce IntOp.andi x v reducesTo_S512x512x64_S_d0_1_2 h_S_) main_v6 main_c_1
  let main_v8 : IVec S_ 1 := andi main_v3 main_v7
  let main_v9 : FVec F S512x512x64 .f32 := Host.absf main_arg2
  let main_cst_2 : FVec F S_ .f32 := constant S_ .f32 0x7F800000#32
  let main_v10 : FVec F S512x512x64 .f32 := broadcastInDim S512x512x64 ![] bcast_S_S512x512x64 main_cst_2
  let main_v11 : IVec S512x512x64 1 := cmpf .olt main_v9 main_v10
  let main_c_3 : IVec S_ 1 := constantI S_ 1 1#1
  let main_v12 : IVec S_ 1 := (fun x v => Host.reduce IntOp.andi x v reducesTo_S512x512x64_S_d0_1_2 h_S_) main_v11 main_c_3
  let main_v13 : IVec S_ 1 := andi main_v8 main_v12
  let main_v14 : FVec F S32x2 .f32 := Host.absf main_arg4
  let main_cst_4 : FVec F S_ .f32 := constant S_ .f32 0x7F800000#32
  let main_v15 : FVec F S32x2 .f32 := broadcastInDim S32x2 ![] bcast_S_S32x2 main_cst_4
  let main_v16 : IVec S32x2 1 := cmpf .olt main_v14 main_v15
  fn_part1 (F := F) main_arg5 main_arg6 main_arg7 main_arg8 main_arg9 main_v13 main_v16
-- ==== Kernel.lean ====
abbrev S512x512x2 : Shape := ⟨3, ![512, 512, 2]⟩
abbrev S512x512x64 : Shape := ⟨3, ![512, 512, 64]⟩
abbrev S512x512 : Shape := ⟨2, ![512, 512]⟩
abbrev S32x2 : Shape := ⟨2, ![32, 2]⟩
abbrev S32 : Shape := ⟨1, ![32]⟩
abbrev S256x32 : Shape := ⟨2, ![256, 32]⟩
abbrev S256x64 : Shape := ⟨2, ![256, 64]⟩
abbrev S256 : Shape := ⟨1, ![256]⟩
abbrev S262144x2 : Shape := ⟨2, ![262144, 2]⟩
abbrev S262144x1 : Shape := ⟨2, ![262144, 1]⟩
abbrev S_ : Shape := ⟨0, ![]⟩
abbrev S2x32 : Shape := ⟨2, ![2, 32]⟩
abbrev S1x32 : Shape := ⟨2, ![1, 32]⟩
abbrev S32x256 : Shape := ⟨2, ![32, 256]⟩
abbrev S64x256 : Shape := ⟨2, ![64, 256]⟩
abbrev S1x256 : Shape := ⟨2, ![1, 256]⟩
abbrev S32x64 : Shape := ⟨2, ![32, 64]⟩
abbrev S64x64 : Shape := ⟨2, ![64, 64]⟩
abbrev S96x64 : Shape := ⟨2, ![96, 64]⟩
abbrev S1x64 : Shape := ⟨2, ![1, 64]⟩
abbrev S4096x2 : Shape := ⟨2, ![4096, 2]⟩
abbrev S8x512x64 : Shape := ⟨3, ![8, 512, 64]⟩
abbrev S4096x1 : Shape := ⟨2, ![4096, 1]⟩
abbrev S4096x64 : Shape := ⟨2, ![4096, 64]⟩
abbrev S4096x32 : Shape := ⟨2, ![4096, 32]⟩

abbrev nBuf : Space → Nat
  | .hbm => 44
  | .vmem => 23
  | .smem => 0
  | _ => 0

abbrev bufTy : (tb : Table) → Fin (tcTables nBuf tb) → BufTy
  | .hbm, ⟨0, _⟩ => ⟨S512x512x2, .f32⟩
  | .hbm, ⟨1, _⟩ => ⟨S512x512x64, .f32⟩
  | .hbm, ⟨2, _⟩ => ⟨S512x512x64, .f32⟩
  | .hbm, ⟨3, _⟩ => ⟨S512x512, .i32⟩
  | .hbm, ⟨4, _⟩ => ⟨S32x2, .f32⟩
  | .hbm, ⟨5, _⟩ => ⟨S32, .f32⟩
  | .hbm, ⟨6, _⟩ => ⟨S256x32, .f32⟩
  | .hbm, ⟨7, _⟩ => ⟨S256x64, .f32⟩
  | .hbm, ⟨8, _⟩ => ⟨S256, .f32⟩
  | .hbm, ⟨9, _⟩ => ⟨S256, .f32⟩
  | .hbm, ⟨10, _⟩ => ⟨S262144x2, .f32⟩
  | .hbm, ⟨11, _⟩ => ⟨S262144x1, .i32⟩
  | .hbm, ⟨12, _⟩ => ⟨S_, .i32⟩
  | .hbm, ⟨13, _⟩ => ⟨S262144x1, .i32⟩
  | .hbm, ⟨14, _⟩ => ⟨S262144x1, .i1⟩
  | .hbm, ⟨15, _⟩ => ⟨S262144x1, .bf16⟩
  | .hbm, ⟨16, _⟩ => ⟨S2x32, .f32⟩
  | .hbm, ⟨17, _⟩ => ⟨S1x32, .f32⟩
  | .hbm, ⟨18, _⟩ => ⟨S32x256, .f32⟩
  | .hbm, ⟨19, _⟩ => ⟨S32x256, .bf16⟩
  | .hbm, ⟨20, _⟩ => ⟨S64x256, .f32⟩
  | .hbm, ⟨21, _⟩ => ⟨S64x256, .bf16⟩
  | .hbm, ⟨22, _⟩ => ⟨S256, .f32⟩
  | .hbm, ⟨23, _⟩ => ⟨S1x256, .f32⟩
  | .hbm, ⟨24, _⟩ => ⟨S32x64, .bf16⟩
  | .hbm, ⟨25, _⟩ => ⟨S64x64, .bf16⟩
  | .hbm, ⟨26, _⟩ => ⟨S96x64, .bf16⟩
  | .hbm, ⟨27, _⟩ => ⟨S32x64, .bf16⟩
  | .hbm, ⟨28, _⟩ => ⟨S64x64, .bf16⟩
  | .hbm, ⟨29, _⟩ => ⟨S96x64, .bf16⟩
  | .hbm, ⟨30, _⟩ => ⟨S32x64, .bf16⟩
  | .hbm, ⟨31, _⟩ => ⟨S64x64, .bf16⟩
  | .hbm, ⟨32, _⟩ => ⟨S96x64, .bf16⟩
  | .hbm, ⟨33, _⟩ => ⟨S32x64, .bf16⟩
  | .hbm, ⟨34, _⟩ => ⟨S64x64, .bf16⟩
  | .hbm, ⟨35, _⟩ => ⟨S96x64, .bf16⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S_, .bf16⟩
  | .hbm, ⟨41, _⟩ => ⟨S1x64, .bf16⟩
  | .hbm, ⟨42, _⟩ => ⟨S512x512x64, .f32⟩
  | .hbm, ⟨43, _⟩ => ⟨S512x512x64, .f32⟩
  | .local _ .vmem, ⟨0, _⟩ => ⟨S4096x2, .f32⟩
  | .local _ .vmem, ⟨1, _⟩ => ⟨S4096x2, .f32⟩
  | .local _ .vmem, ⟨2, _⟩ => ⟨S8x512x64, .f32⟩
  | .local _ .vmem, ⟨3, _⟩ => ⟨S8x512x64, .f32⟩
  | .local _ .vmem, ⟨4, _⟩ => ⟨S8x512x64, .f32⟩
  | .local _ .vmem, ⟨5, _⟩ => ⟨S8x512x64, .f32⟩
  | .local _ .vmem, ⟨6, _⟩ => ⟨S4096x1, .bf16⟩
  | .local _ .vmem, ⟨7, _⟩ => ⟨S4096x1, .bf16⟩
  | .local _ .vmem, ⟨8, _⟩ => ⟨S2x32, .f32⟩
  | .local _ .vmem, ⟨9, _⟩ => ⟨S1x32, .f32⟩
  | .local _ .vmem, ⟨10, _⟩ => ⟨S96x64, .bf16⟩
  | .local _ .vmem, ⟨11, _⟩ => ⟨S96x64, .bf16⟩
  | .local _ .vmem, ⟨12, _⟩ => ⟨S96x64, .bf16⟩
  | .local _ .vmem, ⟨13, _⟩ => ⟨S96x64, .bf16⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S1x64, .bf16⟩
  | .local _ .vmem, ⟨19, _⟩ => ⟨S8x512x64, .f32⟩
  | .local _ .vmem, ⟨20, _⟩ => ⟨S8x512x64, .f32⟩
  | .local _ .vmem, ⟨21, _⟩ => ⟨S8x512x64, .f32⟩
  | .local _ .vmem, ⟨22, _⟩ => ⟨S8x512x64, .f32⟩
  | _, _ => ⟨S512x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8x512x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S512x512x2_S262144x2 : S512x512x2.ShapeCasts S262144x2
  shapeCasts_S512x512_S262144x1 : S512x512.ShapeCasts S262144x1
  bcast_S_S262144x1 : S_.BroadcastsInDim S262144x1 (![] : Fin 0 → Fin S262144x1.rank)
  transposes_S32x2_S2x32_1_0 : S32x2.Transposes [1, 0] S2x32
  shapeCasts_S32_S1x32 : S32.ShapeCasts S1x32
  transposes_S256x32_S32x256_1_0 : S256x32.Transposes [1, 0] S32x256
  bitsLt_bf16_f32 : FTy.bits .bf16 < FTy.bits .f32
  transposes_S256x64_S64x256_1_0 : S256x64.Transposes [1, 0] S64x256
  shapeCasts_S256_S1x256 : S256.ShapeCasts S1x256
  slices_S32x256_S32x64_0_0 : S32x256.Slices ![0, 0] S32x64
  slices_S64x256_S64x64_0_0 : S64x256.Slices ![0, 0] S64x64
  concatenates_S32x64_S64x64_S96x64_d0 : Shape.Concatenates [S32x64, S64x64] S96x64 0
  slices_S32x256_S32x64_0_64 : S32x256.Slices ![0, 64] S32x64
  slices_S64x256_S64x64_0_64 : S64x256.Slices ![0, 64] S64x64
  slices_S32x256_S32x64_0_128 : S32x256.Slices ![0, 128] S32x64
  slices_S64x256_S64x64_0_128 : S64x256.Slices ![0, 128] S64x64
  slices_S32x256_S32x64_0_192 : S32x256.Slices ![0, 192] S32x64
  slices_S64x256_S64x64_0_192 : S64x256.Slices ![0, 192] S64x64
  slices_S1x256_S1x64_0_0 : S1x256.Slices ![0, 0] S1x64
  slices_S1x256_S1x64_0_64 : S1x256.Slices ![0, 64] S1x64
  slices_S1x256_S1x64_0_128 : S1x256.Slices ![0, 128] S1x64
  slices_S1x256_S1x64_0_192 : S1x256.Slices ![0, 192] S1x64
  bcast_S_S1x64 : S_.BroadcastsInDim S1x64 (![] : Fin 0 → Fin S1x64.rank)
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  inb_S8x512x64_S8x512x64_0_0_0 : ∀ a, (![0, 0, 0] : Fin 3 → Nat) a + S8x512x64.size a ≤ S8x512x64.size a
  h_S8x512x64 : 0 < S8x512x64.numel
  shapeCasts_S8x512x64_S4096x64 : S8x512x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  inb_S96x64_S96x64_0_0 : ∀ a, (![0, 0] : Fin 2 → Nat) a + S96x64.size a ≤ S96x64.size a
  h_S96x64 : 0 < S96x64.numel
  shapeCasts_S96x64_S96x64 : S96x64.ShapeCasts S96x64
  slices_S96x64_o0_0_S32x64 : S96x64.Slices ![0, 0] S32x64
  slices_S96x64_o32_0_S64x64 : S96x64.Slices ![32, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  shapeCasts_S4096x64_S8x512x64 : S4096x64.ShapeCasts S8x512x64
  dot_S4096x2_S2x32_S4096x32_1_0_0_1_n_n_wf : DotDims.WF S4096x2 S2x32 S4096x32 [1] [0] [0] [1] [] []
  dot_S4096x32_S32x64_S4096x64_1_0_0_1_n_n_wf : DotDims.WF S4096x32 S32x64 S4096x64 [1] [0] [0] [1] [] []
  dot_S4096x64_S64x64_S4096x64_1_0_0_1_n_n_wf : DotDims.WF S4096x64 S64x64 S4096x64 [1] [0] [0] [1] [] []
  dot_S4096x1_S1x64_S4096x64_1_0_0_1_n_n_wf : DotDims.WF S4096x1 S1x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S262144x2.size a
  hwx0_0 : ∀ i : grid0.Coords, EltTy.bits .f32 = 32 ∨ (Rect.block (s := S262144x2) S4096x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x64.size a ≤ S512x512x64.size a
  hwx0_1 : ∀ i : grid0.Coords, EltTy.bits .f32 = 32 ∨ (Rect.block (s := S512x512x64) S8x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x64.size a ≤ S512x512x64.size a
  hwx0_2 : ∀ i : grid0.Coords, EltTy.bits .f32 = 32 ∨ (Rect.block (s := S512x512x64) S8x512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S262144x1.size a
  hwx0_3 : ∀ i : grid0.Coords, EltTy.bits .bf16 = 32 ∨ (Rect.block (s := S262144x1) S4096x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x32.size a ≤ S2x32.size a
  hwx0_4 : ∀ i : grid0.Coords, EltTy.bits .f32 = 32 ∨ (Rect.block (s := S2x32) S2x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96x64.size a ≤ S96x64.size a
  hwx0_6 : ∀ i : grid0.Coords, EltTy.bits .bf16 = 32 ∨ (Rect.block (s := S96x64) S96x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96x64.size a ≤ S96x64.size a
  hwx0_7 : ∀ i : grid0.Coords, EltTy.bits .bf16 = 32 ∨ (Rect.block (s := S96x64) S96x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S96x64.size a ≤ S96x64.size a
  hwx0_8 : ∀ i : grid0.Coords, EltTy.bits .bf16 = 32 ∨ (Rect.block (s := S96x64) S96x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S96x64.size a ≤ S96x64.size a
  hwx0_9 : ∀ i : grid0.Coords, EltTy.bits .bf16 = 32 ∨ (Rect.block (s := S96x64) S96x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .bf16 = 32 ∨ (Rect.block (s := S1x64) S1x64.size (cc0_transform_14 i) (hinb0_14 i)).WholeWords (EltTy.packing .bf16)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8x512x64.size a ≤ S512x512x64.size a
  hwx0_15 : ∀ i : grid0.Coords, EltTy.bits .f32 = 32 ∨ (Rect.block (s := S512x512x64) S8x512x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S8x512x64.size a ≤ S512x512x64.size a
  hwx0_16 : ∀ i : grid0.Coords, EltTy.bits .f32 = 32 ∨ (Rect.block (s := S512x512x64) S8x512x64.size (cc0_transform_16 i) (hinb0_16 i)).WholeWords (EltTy.packing .f32)

variable [Facts₀]

def dot_S4096x2_S2x32_S4096x32_1_0_0_1_n_n : DotDims S4096x2 S2x32 S4096x32 where
  lhsContracting := [1]
  rhsContracting := [0]
  lhsNonContracting := [0]
  rhsNonContracting := [1]
  lhsBatch := []
  rhsBatch := []
  wf := dot_S4096x2_S2x32_S4096x32_1_0_0_1_n_n_wf
def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x1_S1x64_S4096x64_1_0_0_1_n_n : DotDims S4096x1 S1x64 S4096x64 where
  lhsContracting := [1]
  rhsContracting := [0]
  lhsNonContracting := [0]
  rhsNonContracting := [1]
  lhsBatch := []
  rhsBatch := []
  wf := dot_S4096x1_S1x64_S4096x64_1_0_0_1_n_n_wf

abbrev win0_0 : Pipeline.Window sig grid0 :=
  Pipeline.Window.ofSpec (Memref.whole main_v0) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S96x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S96x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S96x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S96x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v26) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v27) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v28) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v29) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v30_0) S8x512x64.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v30_1) S8x512x64.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S512x512x2 : Shape := ⟨3, ![512, 512, 2]⟩
abbrev S512x512x64 : Shape := ⟨3, ![512, 512, 64]⟩
abbrev S512x512 : Shape := ⟨2, ![512, 512]⟩
abbrev S32x2 : Shape := ⟨2, ![32, 2]⟩
abbrev S32 : Shape := ⟨1, ![32]⟩
abbrev S256x32 : Shape := ⟨2, ![256, 32]⟩
abbrev S256x64 : Shape := ⟨2, ![256, 64]⟩
abbrev S256 : Shape := ⟨1, ![256]⟩
abbrev S262144 : Shape := ⟨1, ![262144]⟩
abbrev S_ : Shape := ⟨0, ![]⟩
abbrev S262144x2 : Shape := ⟨2, ![262144, 2]⟩
abbrev S262144x64 : Shape := ⟨2, ![262144, 64]⟩
abbrev S2x32 : Shape := ⟨2, ![2, 32]⟩
abbrev S262144x32 : Shape := ⟨2, ![262144, 32]⟩
abbrev S1x32 : Shape := ⟨2, ![1, 32]⟩
abbrev S32x256 : Shape := ⟨2, ![32, 256]⟩
abbrev S262144x256 : Shape := ⟨2, ![262144, 256]⟩
abbrev S1x256 : Shape := ⟨2, ![1, 256]⟩
abbrev S64x256 : Shape := ⟨2, ![64, 256]⟩
abbrev S262144x1 : Shape := ⟨2, ![262144, 1]⟩

abbrev nBuf : Space → Nat
  | .hbm => 77
  | .vmem => 0
  | .smem => 0
  | _ => 0

abbrev bufTy : (tb : Table) → Fin (tcTables nBuf tb) → BufTy
  | .hbm, ⟨0, _⟩ => ⟨S512x512x2, .f32⟩
  | .hbm, ⟨1, _⟩ => ⟨S512x512x64, .f32⟩
  | .hbm, ⟨2, _⟩ => ⟨S512x512x64, .f32⟩
  | .hbm, ⟨3, _⟩ => ⟨S512x512, .i32⟩
  | .hbm, ⟨4, _⟩ => ⟨S32x2, .f32⟩
  | .hbm, ⟨5, _⟩ => ⟨S32, .f32⟩
  | .hbm, ⟨6, _⟩ => ⟨S256x32, .f32⟩
  | .hbm, ⟨7, _⟩ => ⟨S256x64, .f32⟩
  | .hbm, ⟨8, _⟩ => ⟨S256, .f32⟩
  | .hbm, ⟨9, _⟩ => ⟨S256, .f32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S262144x2, .f32⟩
  | .hbm, ⟨15, _⟩ => ⟨S262144x64, .f32⟩
  | .hbm, ⟨16, _⟩ => ⟨S262144x64, .f32⟩
  | .hbm, ⟨17, _⟩ => ⟨S2x32, .f32⟩
  | .hbm, ⟨18, _⟩ => ⟨S262144x32, .f32⟩
  | .hbm, ⟨19, _⟩ => ⟨S1x32, .f32⟩
  | .hbm, ⟨20, _⟩ => ⟨S262144x32, .f32⟩
  | .hbm, ⟨21, _⟩ => ⟨S262144x32, .f32⟩
  | .hbm, ⟨22, _⟩ => ⟨S_, .f32⟩
  | .hbm, ⟨23, _⟩ => ⟨S262144x32, .f32⟩
  | .hbm, ⟨24, _⟩ => ⟨S262144x32, .f32⟩
  | .hbm, ⟨25, _⟩ => ⟨S32x256, .f32⟩
  | .hbm, ⟨26, _⟩ => ⟨S262144x256, .f32⟩
  | .hbm, ⟨27, _⟩ => ⟨S1x256, .f32⟩
  | .hbm, ⟨28, _⟩ => ⟨S262144x256, .f32⟩
  | .hbm, ⟨29, _⟩ => ⟨S262144x256, .f32⟩
  | .hbm, ⟨30, _⟩ => ⟨S64x256, .f32⟩
  | .hbm, ⟨31, _⟩ => ⟨S262144x256, .f32⟩
  | .hbm, ⟨32, _⟩ => ⟨S262144x256, .f32⟩
  | .hbm, ⟨33, _⟩ => ⟨S1x256, .f32⟩
  | .hbm, ⟨34, _⟩ => ⟨S262144x256, .f32⟩
  | .hbm, ⟨35, _⟩ => ⟨S262144x256, .f32⟩
  | .hbm, ⟨36, _⟩ => ⟨S262144x64, .f32⟩
  | .hbm, ⟨37, _⟩ => ⟨S262144x64, .f32⟩
  | .hbm, ⟨38, _⟩ => ⟨S262144x64, .f32⟩
  | .hbm, ⟨39, _⟩ => ⟨S262144x64, .f32⟩
  | .hbm, ⟨40, _⟩ => ⟨S262144x64, .f32⟩
  | .hbm, ⟨41, _⟩ => ⟨S262144x64, .f32⟩
  | .hbm, ⟨42, _⟩ => ⟨S_, .f32⟩
  | .hbm, ⟨43, _⟩ => ⟨S262144x64, .f32⟩
  | .hbm, ⟨44, _⟩ => ⟨S262144x64, .f32⟩
  | .hbm, ⟨45, _⟩ => ⟨S_, .f32⟩
  | .hbm, ⟨46, _⟩ => ⟨S262144x64, .f32⟩
  | .hbm, ⟨47, _⟩ => ⟨S262144x64, .f32⟩
  | .hbm, ⟨48, _⟩ => ⟨S262144x64, .f32⟩
  | .hbm, ⟨49, _⟩ => ⟨S262144x64, .f32⟩
  | .hbm, ⟨50, _⟩ => ⟨S_, .f32⟩
  | .hbm, ⟨51, _⟩ => ⟨S262144x64, .f32⟩
  | .hbm, ⟨52, _⟩ => ⟨S262144x64, .f32⟩
  | .hbm, ⟨53, _⟩ => ⟨S_, .f32⟩
  | .hbm, ⟨54, _⟩ => ⟨S262144x64, .f32⟩
  | .hbm, ⟨55, _⟩ => ⟨S262144x64, .f32⟩
  | .hbm, ⟨56, _⟩ => ⟨S262144x64, .f32⟩
  | .hbm, ⟨57, _⟩ => ⟨S262144x64, .f32⟩
  | .hbm, ⟨58, _⟩ => ⟨S262144x64, .f32⟩
  | .hbm, ⟨59, _⟩ => ⟨S_, .f32⟩
  | .hbm, ⟨60, _⟩ => ⟨S262144x64, .f32⟩
  | .hbm, ⟨61, _⟩ => ⟨S262144x64, .f32⟩
  | .hbm, ⟨62, _⟩ => ⟨S_, .f32⟩
  | .hbm, ⟨63, _⟩ => ⟨S262144x64, .f32⟩
  | .hbm, ⟨64, _⟩ => ⟨S262144x64, .f32⟩
  | .hbm, ⟨65, _⟩ => ⟨S262144x64, .f32⟩
  | .hbm, ⟨66, _⟩ => ⟨S262144x64, .f32⟩
  | .hbm, ⟨67, _⟩ => ⟨S262144x64, .f32⟩
  | .hbm, ⟨68, _⟩ => ⟨S262144x64, .f32⟩
  | .hbm, ⟨69, _⟩ => ⟨S262144x64, .f32⟩
  | .hbm, ⟨70, _⟩ => ⟨S262144x1, .i1⟩
  | .hbm, ⟨71, _⟩ => ⟨S262144x64, .i1⟩
  | .hbm, ⟨72, _⟩ => ⟨S262144x64, .f32⟩
  | .hbm, ⟨73, _⟩ => ⟨S512x512x64, .f32⟩
  | .hbm, ⟨74, _⟩ => ⟨S262144x64, .i1⟩
  | .hbm, ⟨75, _⟩ => ⟨S262144x64, .f32⟩
  | .hbm, ⟨76, _⟩ => ⟨S512x512x64, .f32⟩
  | _, _ => ⟨S512x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_cst : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_v30 : Ref sig .tc := ⟨.hbm, 44, rfl⟩
abbrev main_cst_0 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_cst_2 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_cst_4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call1_v0 : Ref sig .tc := ⟨.hbm, 71, rfl⟩
abbrev main_v52 : Ref sig .tc := ⟨.hbm, 72, rfl⟩
abbrev main_v53 : Ref sig .tc := ⟨.hbm, 73, rfl⟩
abbrev main_call2_v0 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]

class Facts₀ : Prop where
  shapeCasts_S512x512_S262144 : S512x512.ShapeCasts S262144
  bcast_S_S262144 : S_.BroadcastsInDim S262144 (![] : Fin 0 → Fin S262144.rank)
  shapeCasts_S512x512x2_S262144x2 : S512x512x2.ShapeCasts S262144x2
  shapeCasts_S512x512x64_S262144x64 : S512x512x64.ShapeCasts S262144x64
  transposes_S32x2_S2x32_1_0 : S32x2.Transposes [1, 0] S2x32
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  transposes_S256x32_S32x256_1_0 : S256x32.Transposes [1, 0] S32x256
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  transposes_S256x64_S64x256_1_0 : S256x64.Transposes [1, 0] S64x256
  slices_S262144x256_S262144x64_0_0 : S262144x256.Slices ![0, 0] S262144x64
  slices_S262144x256_S262144x64_0_64 : S262144x256.Slices ![0, 64] S262144x64
  slices_S262144x256_S262144x64_0_128 : S262144x256.Slices ![0, 128] S262144x64
  slices_S262144x256_S262144x64_0_192 : S262144x256.Slices ![0, 192] S262144x64
  bcast_S_S262144x64 : S_.BroadcastsInDim S262144x64 (![] : Fin 0 → Fin S262144x64.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S512x512x64 : S262144x64.ShapeCasts S512x512x64
  dot_S262144x2_S2x32_S262144x32_1_0_0_1_n_n_wf : DotDims.WF S262144x2 S2x32 S262144x32 [1] [0] [0] [1] [] []
  dot_S262144x32_S32x256_S262144x256_1_0_0_1_n_n_wf : DotDims.WF S262144x32 S32x256 S262144x256 [1] [0] [0] [1] [] []
  dot_S262144x64_S64x256_S262144x256_1_0_0_1_n_n_wf : DotDims.WF S262144x64 S64x256 S262144x256 [1] [0] [0] [1] [] []

variable [Facts₀]

def dot_S262144x2_S2x32_S262144x32_1_0_0_1_n_n : DotDims S262144x2 S2x32 S262144x32 where
  lhsContracting := [1]
  rhsContracting := [0]
  lhsNonContracting := [0]
  rhsNonContracting := [1]
  lhsBatch := []
  rhsBatch := []
  wf := dot_S262144x2_S2x32_S262144x32_1_0_0_1_n_n_wf
def dot_S262144x32_S32x256_S262144x256_1_0_0_1_n_n : DotDims S262144x32 S32x256 S262144x256 where
  lhsContracting := [1]
  rhsContracting := [0]
  lhsNonContracting := [0]
  rhsNonContracting := [1]
  lhsBatch := []
  rhsBatch := []
  wf := dot_S262144x32_S32x256_S262144x256_1_0_0_1_n_n_wf
def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibLstmStep.lean ====
/-
  One step of an LSTM cell on the extended reals, read at a single entry.

  A row of the pairwise table carries a coordinate pair, a hidden row of 64 entries and a cell row of 64 entries.
  The pair is embedded, `emb = max (pair · Wₑ + bₑ) 0` (32 entries); each of the four gates at column `h` has the
  pre-activation `pre + bias`, where `pre` is the sum over the 32 embedded entries and over the 64 hidden entries
  of entry times weight; input, forget and output gates pass it through the logistic function, the candidate
  through `tanh`; the new cell entry is `f·c + i·g` and the new hidden entry `o·tanh(f·c + i·g)`.

  Three laws join two spellings of this step.
  * `sg_eq_logistic`: `½·tanh(½·z) + ½ = 1 / (1 + e^(−z))` for EVERY extended real `z` — at `+∞` both sides are `1`,
    at `−∞` both are `0`, and on the reals it is the identity `tanh(z/2) = (1 − e^(−z)) / (1 + e^(−z))`.
  * `regroup`: `((A + b) + B) + b' = (A + B) + (b + b')` — commutativity and associativity of the sum only.
  * `blend_select`: with `μ ∈ {0, 1}` the indicator of a one-bit word, `a + μ·(v − a)` is `v` where the bit is set and
    `a` where it is not. Where the bit is set this cancels `a`, which needs `a` to be a REAL (at an infinite `a` the
    left side is `a − a`); where it is not set `0·x = 0` holds for every extended real `x`.
-/
import Idealize.ShloMosaic.PureOps.Ideal
import Idealize.ShloMosaic.PureOps.Ideal.Laws

noncomputable section

open scoped BigOperators

namespace Cert.Lstm

open Idealize.ShloMosaic

/-! ## The three float words the two programs spell -/

/-- The word `0x3F000000` denotes one half. -/
theorem half_f32 : Ideal.ofBits .f32 0x3F000000#32 = ((1 / 2 : ℝ) : EReal) := by
  simp [Ideal.ofBits, Ideal.ieee, -EReal.coe_mul]; norm_num

/-- The word `0x3F800000` denotes one. -/
theorem one_f32 : Ideal.ofBits .f32 0x3F800000#32 = 1 := by
  simp [Ideal.ofBits, Ideal.ieee, -EReal.coe_mul]; norm_num

/-- The sixteen-bit word `0x3F80` denotes one. -/
theorem one_bf16 : Ideal.ofBits .bf16 0x3F80#16 = 1 := by
  simp [Ideal.ofBits, Ideal.ieee, -EReal.coe_mul]; norm_num

/-! ## The step, entry by entry -/

/-- The embedded coordinate pair: `max (Σₖ pair k · Wₑ k e + bₑ e) 0`. -/
def emb (cr : Fin 2 → EReal) (we : Fin 2 → Fin 32 → EReal) (be : Fin 32 → EReal) (e : Fin 32) : EReal :=
  max ((∑ k : Fin 2, cr k * we k e) + be e) 0

/-- A gate's pre-activation without its bias: the embedded row against one weight column plus the hidden row
    against another. -/
def pre (x : Fin 32 → EReal) (hr : Fin 64 → EReal) (wx : Fin 32 → EReal) (wh : Fin 64 → EReal) : EReal :=
  (∑ e : Fin 32, x e * wx e) + (∑ j : Fin 64, hr j * wh j)

/-- One half, as the word the program spells. -/
def halfW : EReal := Ideal.ofBits .f32 0x3F000000#32

/-- The logistic function spelt through the hyperbolic tangent: `½·tanh(½·z) + ½`. -/
def sg (z : EReal) : EReal := halfW * Ideal.tanh (halfW * z) + halfW

/-- The new cell entry `f·c + i·g` from the four pre-activations (gate order: input, forget, candidate, output). -/
def cellNew (z : Fin 4 → EReal) (c : EReal) : EReal := sg (z 1) * c + sg (z 0) * Ideal.tanh (z 2)

/-- The new hidden entry `o·tanh(f·c + i·g)`. -/
def hiddenNew (z : Fin 4 → EReal) (c : EReal) : EReal := sg (z 3) * Ideal.tanh (cellNew z c)

/-- Overwrite `a` by `v` with weight `μ`: `a + μ·(v − a)`. -/
def blend (a μ v : EReal) : EReal := a + μ * (v - a)

/-- The four gates' pre-activations of one entry: each gate's two products plus its bias. -/
def gates (x : Fin 32 → EReal) (hr : Fin 64 → EReal) (wx : Fin 4 → Fin 32 → EReal) (wh : Fin 4 → Fin 64 → EReal)
    (bias : Fin 4 → EReal) (k : Fin 4) : EReal :=
  pre x hr (wx k) (wh k) + bias k

/-- The hidden entry the step leaves: the old entry `a` overwritten with weight `μ` by the new hidden entry. -/
def hiddenOut (cr : Fin 2 → EReal) (we : Fin 2 → Fin 32 → EReal) (be : Fin 32 → EReal) (hr : Fin 64 → EReal)
    (wx : Fin 4 → Fin 32 → EReal) (wh : Fin 4 → Fin 64 → EReal) (bias : Fin 4 → EReal) (c a μ : EReal) : EReal :=
  blend a μ (hiddenNew (gates (emb cr we be) hr wx wh bias) c)

/-- The cell entry the step leaves: the old entry `c` overwritten with weight `μ` by the new cell entry. -/
def cellOut (cr : Fin 2 → EReal) (we : Fin 2 → Fin 32 → EReal) (be : Fin 32 → EReal) (hr : Fin 64 → EReal)
    (wx : Fin 4 → Fin 32 → EReal) (wh : Fin 4 → Fin 64 → EReal) (bias : Fin 4 → EReal) (c μ : EReal) : EReal :=
  blend c μ (cellNew (gates (emb cr we be) hr wx wh bias) c)

/-! ## The laws -/

theorem real_sigmoid (r : ℝ) : 1 / 2 * Real.tanh (1 / 2 * r) + 1 / 2 = (1 + Real.exp (-r))⁻¹ := by
  have ha : 0 < Real.exp (1 / 2 * r) := Real.exp_pos _
  have h1 : Real.exp (-(1 / 2 * r)) = (Real.exp (1 / 2 * r))⁻¹ := Real.exp_neg _
  have h2 : Real.exp (-r) = (Real.exp (1 / 2 * r))⁻¹ * (Real.exp (1 / 2 * r))⁻¹ := by
    rw [← h1, ← Real.exp_add]; congr 1; ring
  rw [Real.tanh_eq_sinh_div_cosh, Real.sinh_eq, Real.cosh_eq, h1, h2]
  generalize Real.exp (1 / 2 * r) = a at ha
  have ha' : a ≠ 0 := ne_of_gt ha
  field_simp
  ring

/-- `½·tanh(½·z) + ½` is the logistic function on the whole extended real line. -/
theorem sg_eq_logistic (z : EReal) : sg z = Ideal.logistic z := by
  unfold sg halfW
  rw [half_f32]
  induction z using EReal.rec with
  | bot =>
    rw [EReal.coe_mul_bot_of_pos (by norm_num : (0 : ℝ) < 1 / 2), Ideal.tanh_bot, Ideal.logistic_bot]
    rw [show (-1 : EReal) = ((-1 : ℝ) : EReal) by norm_num, ← EReal.coe_mul, ← EReal.coe_add]
    norm_num
  | coe r =>
    rw [← EReal.coe_mul, Ideal.tanh_coe, ← EReal.coe_mul, ← EReal.coe_add, Ideal.logistic_coe, real_sigmoid]
  | top =>
    rw [EReal.coe_mul_top_of_pos (by norm_num : (0 : ℝ) < 1 / 2), Ideal.tanh_top, Ideal.logistic_top]
    rw [show (1 : EReal) = ((1 : ℝ) : EReal) by norm_num, ← EReal.coe_mul, ← EReal.coe_add]
    norm_num

/-- Two biases added one after each product, or added to each other first: the same sum. -/
theorem regroup (A B b b' : EReal) : ((A + b) + B) + b' = (A + B) + (b + b') := by
  rw [add_assoc (A + b) B b', add_add_add_comm]

/-- A one-bit word is `0` or `1`. -/
theorem bit_cases (c : BitVec 1) : c = 0#1 ∨ c = 1#1 := by
  revert c; decide

/-- With the indicator of a one-bit word as weight (times a factor that is one), blending overwrites exactly
    where the bit is set, provided the overwritten entry is a real. -/
theorem blend_select (c : BitVec 1) (one a v : EReal) (h1 : one = 1) (ha : ∃ r : ℝ, a = (r : EReal)) :
    blend a (((c.toNat : ℝ) : EReal) * one) v = Scalar.select c v a := by
  obtain ⟨r, rfl⟩ := ha
  subst h1
  unfold blend Scalar.select
  rcases bit_cases c with rfl | rfl
  · rw [if_neg (by decide)]
    show (r : EReal) + ((((0#1 : BitVec 1).toNat : ℝ) : EReal) * 1) * (v - r) = r
    rw [show (((0#1 : BitVec 1).toNat : ℝ) : EReal) = 0 by norm_num, zero_mul, zero_mul, add_zero]
  · rw [if_pos (by decide)]
    show (r : EReal) + ((((1#1 : BitVec 1).toNat : ℝ) : EReal) * 1) * (v - r) = v
    rw [show (((1#1 : BitVec 1).toNat : ℝ) : EReal) = 1 by norm_num, one_mul, one_mul, sub_eq_add_neg,
      add_left_comm, ← EReal.coe_neg, ← EReal.coe_add, add_neg_cancel, EReal.coe_zero, add_zero]

end Cert.Lstm

end
-- ==== Proof.Body.lean ====
/-
  The kernel body's arithmetic read at one entry, at the ideal values.

  A block holds 4096 rows. For row `r` and column `h`: the embedded pair is the two-term product of the row's
  coordinate pair with the 2×32 weight block plus the 1×32 bias row, clamped below at zero; each gate's
  pre-activation is the product of the embedded row with the first 32 rows of that gate's 96×64 weight block plus
  the product of the hidden row with its last 64 rows; the per-row weight of the overwrite is the one-term
  product of the row's mask entry with the 1×64 row of ones. Changes of float format are the identity here.
-/
import proofs.«108195_g16716012716121_cont_week2b_1010_5_alg».proof.Proof.Gen.KernelIdeal.Skeleton
import proofs.«108195_g16716012716121_cont_week2b_1010_5_alg».proof.Proof.LibBlockReads
import proofs.«108195_g16716012716121_cont_week2b_1010_5_alg».proof.Proof.LibLstmStep
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Lib.BlockReads

/-- Row `e` of the first 32 rows of a 96×64 block. -/
abbrev topRow (e : Fin 32) : Fin 96 := ⟨e.val, by have := e.isLt; omega⟩
/-- Row `j` of the last 64 rows of a 96×64 block. -/
abbrev botRow (j : Fin 64) : Fin 96 := ⟨32 + j.val, by have := j.isLt; omega⟩

theorem top_rows_apply {α : Type} (w : S96x64.Idx → α) (e : Fin 32) (q : Fin 64) :
    extractStridedSlice S32x64 ![0, 0] w slices_S96x64_o0_0_S32x64 (ix2 e q) = w (ix2 (topRow e) q) :=
  extractStridedSlice_apply _ w _ _ _ fun a => by
    match a with
    | ⟨0, _⟩ => show e.val = 0 + e.val; omega
    | ⟨1, _⟩ => show q.val = 0 + q.val; omega

theorem bot_rows_apply {α : Type} (w : S96x64.Idx → α) (j : Fin 64) (q : Fin 64) :
    extractStridedSlice S64x64 ![32, 0] w slices_S96x64_o32_0_S64x64 (ix2 j q) = w (ix2 (botRow j) q) :=
  extractStridedSlice_apply _ w _ _ _ fun a => by
    match a with
    | ⟨0, _⟩ => show 32 + j.val = 32 + j.val; rfl
    | ⟨1, _⟩ => show q.val = 0 + q.val; omega

/-- The embedded pair of row `r`, entry `e`. -/
theorem emb_apply (v0 : Vec Ideal S4096x2 .f32) (v8 : Vec Ideal S2x32 .f32) (v11 : Vec Ideal S1x32 .f32)
    (r : Fin 4096) (e : Fin 32) :
    k0_pay8 v0 v8 v11 (ix2 r e)
      = Lstm.emb (fun k => v0 (ix2 r k)) (fun k e => v8 (ix2 k e)) (fun e => v11 (ix2 0 e)) e := by
  unfold k0_pay8 Lstm.emb
  simp only [shapeCast_self]
  show max (matmul (F := Ideal) dot_S4096x2_S2x32_S4096x32_1_0_0_1_n_n none v0 v8 (constant (F := Ideal) S4096x32 .f32 0x00000000#32) (ix2 r e)
      + broadcastTo S4096x32 v11 broadcasts_S1x32_S4096x32 (ix2 r e)) (Ideal.ofBits .f32 0x00000000#32) = _
  rw [matmul_zero_rows_apply _ rfl rfl rfl rfl rfl rfl, broadcast_row_apply, Ideal.ofBits_zero_f32]

/-- The sum of a gate's two products — embedded row against the block's first 32 rows, hidden row against its
    last 64 — at row `r` and column `h`. -/
theorem gate_sum_apply (v17 : FVec Ideal S4096x32 .bf16) (v18 : FVec Ideal S4096x64 .bf16) (w : FVec Ideal S96x64 .bf16)
    (r : Fin 4096) (h : Fin 64) :
    addf (matmul (F := Ideal) dot_S4096x32_S32x64_S4096x64_1_0_0_1_n_n none v17 (extractStridedSlice S32x64 ![0, 0] w slices_S96x64_o0_0_S32x64)
        (constant (F := Ideal) S4096x64 .f32 0x00000000#32))
      (matmul (F := Ideal) dot_S4096x64_S64x64_S4096x64_1_0_0_1_n_n none v18 (extractStridedSlice S64x64 ![32, 0] w slices_S96x64_o32_0_S64x64)
        (constant (F := Ideal) S4096x64 .f32 0x00000000#32)) (ix2 r h)
      = Lstm.pre (fun e => v17 (ix2 r e)) (fun j => v18 (ix2 r j)) (fun e => w (ix2 (topRow e) h))
          (fun j => w (ix2 (botRow j) h)) := by
  unfold Lstm.pre
  rw [addf_apply, matmul_zero_rows_apply _ rfl rfl rfl rfl rfl rfl, matmul_zero_rows_apply _ rfl rfl rfl rfl rfl rfl]
  simp only [top_rows_apply, bot_rows_apply]

/-- A gate's two products, summed, at row `r` and column `h`. -/
theorem pre_apply (v17 : FVec Ideal S4096x32 .bf16) (v18 : FVec Ideal S4096x64 .bf16) (w : Vec Ideal S96x64 .bf16)
    (r : Fin 4096) (h : Fin 64) :
    k0_pay14 v17 v18 w (ix2 r h)
      = Lstm.pre (fun e => v17 (ix2 r e)) (fun j => v18 (ix2 r j)) (fun e => w (ix2 (topRow e) h))
          (fun j => w (ix2 (botRow j) h)) := by
  unfold k0_pay14 Lstm.pre
  simp only [shapeCast_self]
  show matmul (F := Ideal) dot_S4096x32_S32x64_S4096x64_1_0_0_1_n_n none v17 (extractStridedSlice S32x64 ![0, 0] w slices_S96x64_o0_0_S32x64)
        (constant (F := Ideal) S4096x64 .f32 0x00000000#32) (ix2 r h)
      + matmul (F := Ideal) dot_S4096x64_S64x64_S4096x64_1_0_0_1_n_n none v18 (extractStridedSlice S64x64 ![32, 0] w slices_S96x64_o32_0_S64x64)
        (constant (F := Ideal) S4096x64 .f32 0x00000000#32) (ix2 r h) = _
  rw [matmul_zero_rows_apply _ rfl rfl rfl rfl rfl rfl, matmul_zero_rows_apply _ rfl rfl rfl rfl rfl rfl]
  simp only [top_rows_apply, bot_rows_apply]

/-- The forget gate (and, with its own blocks, any logistic gate spelt whole): `½·tanh(½·z) + ½` of the pre-activation. -/
theorem logistic_gate_apply (v17 : FVec Ideal S4096x32 .bf16) (v18 : FVec Ideal S4096x64 .bf16) (w : Vec Ideal S96x64 .bf16)
    (bias : Vec Ideal S1x64 .f32) (r : Fin 4096) (h : Fin 64) :
    k0_pay12 v17 v18 w bias (ix2 r h)
      = Lstm.sg (Lstm.pre (fun e => v17 (ix2 r e)) (fun j => v18 (ix2 r j)) (fun e => w (ix2 (topRow e) h))
          (fun j => w (ix2 (botRow j) h)) + bias (ix2 0 h)) := by
  rw [← gate_sum_apply v17 v18 w r h, ← broadcast_row_apply (a := 4096) bias broadcasts_S1x64_S4096x64 r h]
  unfold k0_pay12
  simp only [shapeCast_self]
  rfl

/-- The candidate: `tanh` of the pre-activation. -/
theorem candidate_apply (v17 : FVec Ideal S4096x32 .bf16) (v18 : FVec Ideal S4096x64 .bf16) (w : Vec Ideal S96x64 .bf16)
    (bias : Vec Ideal S1x64 .f32) (r : Fin 4096) (h : Fin 64) :
    k0_pay13 v17 v18 w bias (ix2 r h)
      = Ideal.tanh (Lstm.pre (fun e => v17 (ix2 r e)) (fun j => v18 (ix2 r j)) (fun e => w (ix2 (topRow e) h))
          (fun j => w (ix2 (botRow j) h)) + bias (ix2 0 h)) := by
  rw [← gate_sum_apply v17 v18 w r h, ← broadcast_row_apply (a := 4096) bias broadcasts_S1x64_S4096x64 r h]
  unfold k0_pay13
  simp only [shapeCast_self]
  rfl

/-- The per-row weight of the overwrite: the row's mask entry times the row of ones at column `h`. -/
theorem weight_apply (v7 : FVec Ideal S4096x1 .bf16) (v90 : Vec Ideal S1x64 .bf16) (r : Fin 4096) (h : Fin 64) :
    k0_pay2 v7 v90 (ix2 r h) = v7 (ix2 r 0) * v90 (ix2 0 h) := by
  unfold k0_pay2
  simp only [shapeCast_self]
  show matmul (F := Ideal) dot_S4096x1_S1x64_S4096x64_1_0_0_1_n_n none v7 v90 (constant (F := Ideal) S4096x64 .f32 0x00000000#32) (ix2 r h) = _
  rw [matmul_zero_rows_apply _ rfl rfl rfl rfl rfl rfl, Fin.sum_univ_one]

/-- The row of the 4096-row block that block coordinates `(a, b)` name: rows are numbered first index major. -/
abbrev rowOf (a : Fin 8) (b : Fin 512) : Fin 4096 := ⟨a.val * 512 + b.val, by have := a.isLt; have := b.isLt; omega⟩

/-- The 8×512×64 block flattened to 4096×64 reads `(a, b, h)` at row `rowOf a b`, column `h`. -/
theorem flat_apply {α : Type} (x : S8x512x64.Idx → α) (a : Fin 8) (b : Fin 512) (h : Fin 64) :
    shapeCast S4096x64 x shapeCasts_S8x512x64_S4096x64 (ix2 (rowOf a b) h) = x (ix3 a b h) :=
  shapeCast_apply x _ _ _ (by rw [Shape.rowMajor_val_three, Shape.rowMajor_val_two]; rfl)

/-- And back: a 4096×64 array re-shaped to 8×512×64 reads row `rowOf a b`, column `h` at `(a, b, h)`. -/
theorem unflat_apply {α : Type} (v : S4096x64.Idx → α) (a : Fin 8) (b : Fin 512) (h : Fin 64) :
    shapeCast S8x512x64 v shapeCasts_S4096x64_S8x512x64 (ix3 a b h) = v (ix2 (rowOf a b) h) :=
  shapeCast_apply v _ _ _ (by rw [Shape.rowMajor_val_three, Shape.rowMajor_val_two]; rfl)

theorem hidden_entry_apply (x1 : Vec Ideal S8x512x64 .f32) (a : Fin 8) (b : Fin 512) (h : Fin 64) :
    k0_pay5 x1 (ix2 (rowOf a b) h) = x1 (ix3 a b h) := by
  unfold k0_pay5; exact flat_apply x1 a b h

theorem cell_entry_apply (x2 : Vec Ideal S8x512x64 .f32) (a : Fin 8) (b : Fin 512) (h : Fin 64) :
    k0_pay6 x2 (ix2 (rowOf a b) h) = x2 (ix3 a b h) := by
  unfold k0_pay6; exact flat_apply x2 a b h

/-- The hidden row the gates' products read (its change of format is the identity). -/
theorem hidden_row_apply (x1 : Vec Ideal S8x512x64 .f32) (a : Fin 8) (b : Fin 512) (j : Fin 64) :
    k0_pay9 x1 (ix2 (rowOf a b) j) = x1 (ix3 a b j) := by
  unfold k0_pay9
  exact hidden_entry_apply x1 a b j

theorem mask_block_eq (x3 : Vec Ideal S4096x1 .bf16) : k0_pay7 x3 = x3 := by
  unfold k0_pay7; exact shapeCast_self _ _

/-- The input gate, spelt in two steps (`½·tanh(½·z)`, then `+ ½`). -/
theorem input_gate_apply (v0 : Vec Ideal S4096x2 .f32) (v2 : Vec Ideal S8x512x64 .f32) (v8 : Vec Ideal S2x32 .f32)
    (v11 : Vec Ideal S1x32 .f32) (w : Vec Ideal S96x64 .bf16) (bias : Vec Ideal S1x64 .f32) (r : Fin 4096) (h : Fin 64) :
    k0_pay11 (k0_pay10 v0 v2 v8 v11 w bias) (ix2 r h)
      = Lstm.sg (Lstm.pre (fun e => k0_pay8 v0 v8 v11 (ix2 r e)) (fun j => k0_pay9 v2 (ix2 r j))
          (fun e => w (ix2 (topRow e) h)) (fun j => w (ix2 (botRow j) h)) + bias (ix2 0 h)) := by
  rw [← gate_sum_apply (k0_pay8 v0 v8 v11) (k0_pay9 v2) w r h,
    ← broadcast_row_apply (a := 4096) bias broadcasts_S1x64_S4096x64 r h]
  unfold k0_pay11 k0_pay10
  simp only [shapeCast_self]
  rfl

section Stores
variable (x0 : Vec Ideal S4096x2 .f32) (x1 x2 : Vec Ideal S8x512x64 .f32) (x3 : Vec Ideal S4096x1 .bf16)
  (x4 : Vec Ideal S2x32 .f32) (x5 : Vec Ideal S1x32 .f32) (x6 x7 x8 x9 : Vec Ideal S96x64 .bf16)
  (x10 x11 x12 x13 : Vec Ideal S1x64 .f32) (x14 : Vec Ideal S1x64 .bf16)

/-- What the body stores to the hidden-state output block at `(a, b, h)`, from the fifteen input blocks: the step's
    hidden entry of row `rowOf a b`, with the four gates' weight blocks and bias rows in the order input, forget,
    candidate, output. -/
theorem hidden_store_apply (a : Fin 8) (b : Fin 512) (h : Fin 64) :
    k0_pay3 (k0_pay5 x1) (k0_pay6 x2) (k0_pay7 x3) (k0_pay11 (k0_pay10 x0 x1 x4 x5 x6 x10))
        (k0_pay12 (k0_pay8 x0 x4 x5) (k0_pay9 x1) x7 x11) (k0_pay13 (k0_pay8 x0 x4 x5) (k0_pay9 x1) x8 x12)
        (k0_pay14 (k0_pay8 x0 x4 x5) (k0_pay9 x1) x9) x13 x14 (ix3 a b h)
      = Lstm.hiddenOut (fun k => x0 (ix2 (rowOf a b) k)) (fun k e => x4 (ix2 k e)) (fun e => x5 (ix2 0 e))
          (fun j => x1 (ix3 a b j))
          (fun k e => (![x6, x7, x8, x9] k) (ix2 (topRow e) h)) (fun k j => (![x6, x7, x8, x9] k) (ix2 (botRow j) h))
          (fun k => (![x10, x11, x12, x13] k) (ix2 0 h))
          (x2 (ix3 a b h)) (x1 (ix3 a b h)) (x3 (ix2 (rowOf a b) 0) * x14 (ix2 0 h)) := by
  unfold k0_pay3
  refine (unflat_apply _ a b h).trans ?_
  simp only [shapeCast_self]
  show (k0_pay5 x1 (ix2 (rowOf a b) h) : EReal) + (k0_pay2 (k0_pay7 x3) x14 (ix2 (rowOf a b) h) : EReal) *
      ((Lstm.halfW * Ideal.tanh (Lstm.halfW * ((k0_pay14 (k0_pay8 x0 x4 x5) (k0_pay9 x1) x9 (ix2 (rowOf a b) h) : EReal)
          + (broadcastTo S4096x64 x13 broadcasts_S1x64_S4096x64 (ix2 (rowOf a b) h) : EReal))) + Lstm.halfW)
        * Ideal.tanh ((k0_pay12 (k0_pay8 x0 x4 x5) (k0_pay9 x1) x7 x11 (ix2 (rowOf a b) h) : EReal) * (k0_pay6 x2 (ix2 (rowOf a b) h) : EReal)
            + (k0_pay11 (k0_pay10 x0 x1 x4 x5 x6 x10) (ix2 (rowOf a b) h) : EReal)
              * (k0_pay13 (k0_pay8 x0 x4 x5) (k0_pay9 x1) x8 x12 (ix2 (rowOf a b) h) : EReal))
        - (k0_pay5 x1 (ix2 (rowOf a b) h) : EReal)) = _
  rw [hidden_entry_apply, cell_entry_apply, weight_apply, mask_block_eq, pre_apply, logistic_gate_apply,
    candidate_apply, input_gate_apply, broadcast_row_apply]
  simp only [emb_apply, hidden_row_apply]
  rfl

/-- What the body stores to the cell-state output block at `(a, b, h)`: the step's cell entry of row `rowOf a b`. -/
theorem cell_store_apply (a : Fin 8) (b : Fin 512) (h : Fin 64) :
    k0_pay4 (k0_pay6 x2) (k0_pay7 x3) (k0_pay11 (k0_pay10 x0 x1 x4 x5 x6 x10))
        (k0_pay12 (k0_pay8 x0 x4 x5) (k0_pay9 x1) x7 x11) (k0_pay13 (k0_pay8 x0 x4 x5) (k0_pay9 x1) x8 x12) x14 (ix3 a b h)
      = Lstm.cellOut (fun k => x0 (ix2 (rowOf a b) k)) (fun k e => x4 (ix2 k e)) (fun e => x5 (ix2 0 e))
          (fun j => x1 (ix3 a b j))
          (fun k e => (![x6, x7, x8, x9] k) (ix2 (topRow e) h)) (fun k j => (![x6, x7, x8, x9] k) (ix2 (botRow j) h))
          (fun k => (![x10, x11, x12, x13] k) (ix2 0 h))
          (x2 (ix3 a b h)) (x3 (ix2 (rowOf a b) 0) * x14 (ix2 0 h)) := by
  unfold k0_pay4
  refine (unflat_apply _ a b h).trans ?_
  show (k0_pay6 x2 (ix2 (rowOf a b) h) : EReal) + (k0_pay2 (k0_pay7 x3) x14 (ix2 (rowOf a b) h) : EReal) *
      (((k0_pay12 (k0_pay8 x0 x4 x5) (k0_pay9 x1) x7 x11 (ix2 (rowOf a b) h) : EReal) * (k0_pay6 x2 (ix2 (rowOf a b) h) : EReal)
          + (k0_pay11 (k0_pay10 x0 x1 x4 x5 x6 x10) (ix2 (rowOf a b) h) : EReal)
            * (k0_pay13 (k0_pay8 x0 x4 x5) (k0_pay9 x1) x8 x12 (ix2 (rowOf a b) h) : EReal))
        - (k0_pay6 x2 (ix2 (rowOf a b) h) : EReal)) = _
  rw [cell_entry_apply, weight_apply, mask_block_eq, logistic_gate_apply, candidate_apply, input_gate_apply]
  simp only [emb_apply, hidden_row_apply]
  rfl

end Stores

end Cert.KernelIdeal.Body

end
-- ==== Proof.LibConcatCongr.lean ====
/-
  Concatenations with equal operands are equal. A concatenation takes, beside its list of operands, a proof about the
  operands' shapes, so a rewriting pass does not enter the operands by itself; these two congruences (two operands, four
  operands) let it. Nothing here mentions a program.
-/
import Idealize.ShloMosaic.Lib.Pipeline.Value

namespace Cert.Lib.ConcatCongr

open Idealize.ShloMosaic

/-- Two-operand concatenations with equal operands are equal. -/
theorem concatenate_pair_congr {α : Type} {t s₁ s₂ : Shape} (a : Fin t.rank) (x₁ : s₁.Idx → α) (x₂ : s₂.Idx → α)
    {x₁' : s₁.Idx → α} {x₂' : s₂.Idx → α}
    (h : Shape.Concatenates (([⟨s₁, x₁⟩, ⟨s₂, x₂⟩] : List ((s : Shape) × (s.Idx → α))).map (·.1)) t a)
    (e₁ : x₁ = x₁') (e₂ : x₂ = x₂') :
    concatenate t a [⟨s₁, x₁⟩, ⟨s₂, x₂⟩] h = concatenate t a [⟨s₁, x₁'⟩, ⟨s₂, x₂'⟩] h := by
  subst e₁ e₂; rfl

/-- Four-operand concatenations with equal operands are equal. -/
theorem concatenate_quad_congr {α : Type} {t s₁ s₂ s₃ s₄ : Shape} (a : Fin t.rank)
    (x₁ : s₁.Idx → α) (x₂ : s₂.Idx → α) (x₃ : s₃.Idx → α) (x₄ : s₄.Idx → α)
    {x₁' : s₁.Idx → α} {x₂' : s₂.Idx → α} {x₃' : s₃.Idx → α} {x₄' : s₄.Idx → α}
    (h : Shape.Concatenates (([⟨s₁, x₁⟩, ⟨s₂, x₂⟩, ⟨s₃, x₃⟩, ⟨s₄, x₄⟩] : List ((s : Shape) × (s.Idx → α))).map (·.1)) t a)
    (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h
      = concatenate t a [⟨s₁, x₁'⟩, ⟨s₂, x₂'⟩, ⟨s₃, x₃'⟩, ⟨s₄, x₄'⟩] h := by
  subst e₁ e₂ e₃ e₄; rfl

end Cert.Lib.ConcatCongr
-- ==== Proof.Windows.lean ====
/-
  The arrays the host prepares for the kernel's windows, read at an index as functions of the argument arrays.

  * the coordinate pairs, a re-shaping of the 512×512×2 argument to 262144×2: row `n` is pair `(n / 512, n % 512)`;
  * the mask column: `1` where the integer argument at `(n / 512, n % 512)` is positive, `0` elsewhere;
  * the embedding weight transposed, and its bias as a 1×32 row;
  * per gate `k` (offset `o = 64·k`): the 96×64 block whose first 32 rows are columns `o … o+63` of the
    transposed input weight and whose last 64 rows are the same columns of the transposed hidden weight — so its
    entry `(e, h)` is the weight's entry `(o + h, e)` —, and the 1×64 row of the summed biases at `o + h`;
  * a row of ones.
  Changes of float format are the identity at the ideal values.
-/
import proofs.«108195_g16716012716121_cont_week2b_1010_5_alg».proof.Proof.Gen.KernelIdeal.Frame
import proofs.«108195_g16716012716121_cont_week2b_1010_5_alg».proof.Proof.LibConcatCongr
import proofs.«108195_g16716012716121_cont_week2b_1010_5_alg».proof.Proof.Body
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Windows

open Cert.KernelIdeal Cert.KernelIdeal.Gen Cert.KernelIdeal.Body Idealize.ShloMosaic Idealize.ShloMosaic.TcCoe Idealize.SL.Sem
  Idealize.ShloMosaic.StableHlo Idealize.ShloMosaic.ValueIdx

attribute [local congr] Cert.Lib.ConcatCongr.concatenate_pair_congr

/-- The first coordinate of the pair that row `n` of the flattened table stands for. -/
abbrev hi (n : Fin 262144) : Fin 512 := ⟨n.val / 512, by have := n.isLt; omega⟩
/-- Its second coordinate. -/
abbrev lo (n : Fin 262144) : Fin 512 := ⟨n.val % 512, by omega⟩
/-- Row `o + h` of a 256-row weight: gate offset `o`, column `h`. -/
abbrev gateRow (o : Nat) (ho : o + 64 ≤ 256) (h : Fin 64) : Fin 256 := ⟨o + h.val, by have := h.isLt; omega⟩

/-! ## Layout reads over arbitrary arrays -/

theorem pairs_apply {α : Type} (A : S512x512x2.Idx → α) (n : Fin 262144) (k : Fin 2) :
    shapeCast S262144x2 A shapeCasts_S512x512x2_S262144x2 (ix2 n k) = A (ix3 (hi n) (lo n) k) :=
  shapeCast_apply A _ _ _ (by
    rw [Shape.rowMajor_val_three, Shape.rowMajor_val_two]
    show (n.val / 512 * 512 + n.val % 512) * 2 + k.val = n.val * 2 + k.val
    omega)

theorem column_apply {α : Type} (A : S512x512.Idx → α) (n : Fin 262144) :
    shapeCast S262144x1 A shapeCasts_S512x512_S262144x1 (ix2 n 0) = A (ix2 (hi n) (lo n)) :=
  shapeCast_apply A _ _ _ (by
    rw [Shape.rowMajor_val_two, Shape.rowMajor_val_two]
    show n.val / 512 * 512 + n.val % 512 = n.val * 1 + 0
    omega)

theorem swap_apply {α : Type} {p q : Nat} (A : (⟨2, ![p, q]⟩ : Shape).Idx → α)
    (h : (⟨2, ![p, q]⟩ : Shape).Transposes [1, 0] ⟨2, ![q, p]⟩) (a : Fin q) (b : Fin p) :
    transpose ⟨2, ![q, p]⟩ [1, 0] A h (ix2 a b) = A (ix2 b a) :=
  transpose_apply _ A h _ _ fun ax => by
    match ax with
    | ⟨0, _⟩ => rfl
    | ⟨1, _⟩ => rfl

theorem row_of_vector_apply {α : Type} (A : S32.Idx → α) (e : Fin 32) :
    shapeCast S1x32 A shapeCasts_S32_S1x32 (ix2 0 e) = A (ix1 e) :=
  shapeCast_apply A _ _ _ (by
    rw [Shape.rowMajor_val_one, Shape.rowMajor_val_two]
    show e.val = 0 * 32 + e.val
    omega)

/-- A gate's 96×64 block, from the two weights and the gate's column offset. -/
abbrev gateBlock (A6 : S256x32.Idx → EReal) (A7 : S256x64.Idx → EReal) (o : Nat)
    (hs1 : S32x256.Slices ![0, o] S32x64) (hs2 : S64x256.Slices ![0, o] S64x64) : S96x64.Idx → EReal :=
  concatenate S96x64 0
    [⟨S32x64, extractStridedSlice S32x64 ![0, o] (truncf (F := Ideal) .bf16 (transpose S32x256 [1, 0] A6 transposes_S256x32_S32x256_1_0) bitsLt_bf16_f32) hs1⟩,
     ⟨S64x64, extractStridedSlice S64x64 ![0, o] (truncf (F := Ideal) .bf16 (transpose S64x256 [1, 0] A7 transposes_S256x64_S64x256_1_0) bitsLt_bf16_f32) hs2⟩]
    concatenates_S32x64_S64x64_S96x64_d0

theorem gateBlock_top (A6 : S256x32.Idx → EReal) (A7 : S256x64.Idx → EReal) (o : Nat) (ho : o + 64 ≤ 256)
    (hs1 : S32x256.Slices ![0, o] S32x64) (hs2 : S64x256.Slices ![0, o] S64x64) (e : Fin 32) (h : Fin 64) :
    gateBlock A6 A7 o hs1 hs2 (ix2 (topRow e) h) = A6 (ix2 (gateRow o ho h) e) := by
  refine (concatenate_pair_apply_left (t := S96x64) (s₁ := S32x64) (s₂ := S64x64) 0 _ _ concatenates_S32x64_S64x64_S96x64_d0 (ix2 (topRow e) h) rfl (ix2 e h) fun b => by
    match b with
    | ⟨0, _⟩ => rfl
    | ⟨1, _⟩ => rfl).trans ?_
  refine (extractStridedSlice_apply _ _ hs1 (ix2 e h) (ix2 e (gateRow o ho h)) fun a => by
    match a with
    | ⟨0, _⟩ => show e.val = 0 + e.val; omega
    | ⟨1, _⟩ => rfl).trans ?_
  exact swap_apply A6 _ e (gateRow o ho h)

theorem gateBlock_bot (A6 : S256x32.Idx → EReal) (A7 : S256x64.Idx → EReal) (o : Nat) (ho : o + 64 ≤ 256)
    (hs1 : S32x256.Slices ![0, o] S32x64) (hs2 : S64x256.Slices ![0, o] S64x64) (j : Fin 64) (h : Fin 64) :
    gateBlock A6 A7 o hs1 hs2 (ix2 (botRow j) h) = A7 (ix2 (gateRow o ho h) j) := by
  refine (concatenate_pair_apply_right (t := S96x64) (s₁ := S32x64) (s₂ := S64x64) 0 _ _ concatenates_S32x64_S64x64_S96x64_d0 (ix2 (botRow j) h) rfl rfl (ix2 j h) (fun b hb => by
    match b with
    | ⟨0, _⟩ => exact absurd rfl hb
    | ⟨1, _⟩ => rfl) (by show j.val + 32 = 32 + j.val; omega)).trans ?_
  refine (extractStridedSlice_apply _ _ hs2 (ix2 j h) (ix2 j (gateRow o ho h)) fun a => by
    match a with
    | ⟨0, _⟩ => show j.val = 0 + j.val; omega
    | ⟨1, _⟩ => rfl).trans ?_
  exact swap_apply A7 _ j (gateRow o ho h)

/-- A gate's 1×64 bias row, from the two bias vectors and the gate's offset. -/
abbrev biasRow (A8 A9 : S256.Idx → EReal) (o : Nat) (hs : S1x256.Slices ![0, o] S1x64) : S1x64.Idx → EReal :=
  extractStridedSlice S1x64 ![0, o] (shapeCast S1x256 (addf (F := Ideal) (φ := .f32) A8 A9) shapeCasts_S256_S1x256) hs

theorem biasRow_apply (A8 A9 : S256.Idx → EReal) (o : Nat) (ho : o + 64 ≤ 256) (hs : S1x256.Slices ![0, o] S1x64) (h : Fin 64) :
    biasRow A8 A9 o hs (ix2 0 h) = A8 (ix1 (gateRow o ho h)) + A9 (ix1 (gateRow o ho h)) := by
  refine (extractStridedSlice_apply _ _ hs (ix2 0 h) (ix2 0 (gateRow o ho h)) fun a => by
    match a with
    | ⟨0, _⟩ => rfl
    | ⟨1, _⟩ => rfl).trans ?_
  refine (shapeCast_apply _ _ (ix2 0 (gateRow o ho h)) (ix1 (gateRow o ho h)) (by
    rw [Shape.rowMajor_val_one, Shape.rowMajor_val_two]
    show o + h.val = 0 * 256 + (o + h.val)
    omega)).trans ?_
  rfl

/-! ## The windows' arrays as the region finds them -/

section Arrays
variable (m : (ℓ : Loc nD τ sig) → Buf (Elt Ideal) ℓ) (c : Dev nD)

theorem pairs_eq : (V m c main_v0 : S262144x2.Idx → EReal)
    = shapeCast S262144x2 (m ((c : Thread nD τ).loc main_arg0)) shapeCasts_S512x512x2_S262144x2 := by
  dsimp only [Gen.V, Gen.hostOps0]; after_results_simp <;> rfl

theorem mask_eq : (V m c main_v4 : S262144x1.Idx → EReal)
    = uitofp (F := Ideal) .bf16 (cmpi .sgt (shapeCast S262144x1 (m ((c : Thread nD τ).loc main_arg3)) shapeCasts_S512x512_S262144x1)
        (broadcastInDim S262144x1 ![] bcast_S_S262144x1 (constantI S_ 32 0#32))) := by
  dsimp only [Gen.V, Gen.hostOps0]; after_results_simp <;> rfl

theorem wemb_eq : (V m c main_v5 : S2x32.Idx → EReal)
    = transpose S2x32 [1, 0] (m ((c : Thread nD τ).loc main_arg4)) transposes_S32x2_S2x32_1_0 := by
  dsimp only [Gen.V, Gen.hostOps0]; after_results_simp <;> rfl

theorem bemb_eq : (V m c main_v6 : S1x32.Idx → EReal)
    = shapeCast S1x32 (m ((c : Thread nD τ).loc main_arg5)) shapeCasts_S32_S1x32 := by
  dsimp only [Gen.V, Gen.hostOps0]; after_results_simp <;> rfl

theorem gate0_eq : (V m c main_v15 : S96x64.Idx → EReal)
    = gateBlock (m ((c : Thread nD τ).loc main_arg6)) (m ((c : Thread nD τ).loc main_arg7)) 0 slices_S32x256_S32x64_0_0 slices_S64x256_S64x64_0_0 := by
  dsimp only [Gen.V, Gen.hostOps0]; after_results_simp <;> rfl

theorem gate1_eq : (V m c main_v18 : S96x64.Idx → EReal)
    = gateBlock (m ((c : Thread nD τ).loc main_arg6)) (m ((c : Thread nD τ).loc main_arg7)) 64 slices_S32x256_S32x64_0_64 slices_S64x256_S64x64_0_64 := by
  dsimp only [Gen.V, Gen.hostOps0]; after_results_simp <;> rfl

theorem gate2_eq : (V m c main_v21 : S96x64.Idx → EReal)
    = gateBlock (m ((c : Thread nD τ).loc main_arg6)) (m ((c : Thread nD τ).loc main_arg7)) 128 slices_S32x256_S32x64_0_128 slices_S64x256_S64x64_0_128 := by
  dsimp only [Gen.V, Gen.hostOps0]; after_results_simp <;> rfl

theorem gate3_eq : (V m c main_v24 : S96x64.Idx → EReal)
    = gateBlock (m ((c : Thread nD τ).loc main_arg6)) (m ((c : Thread nD τ).loc main_arg7)) 192 slices_S32x256_S32x64_0_192 slices_S64x256_S64x64_0_192 := by
  dsimp only [Gen.V, Gen.hostOps0]; after_results_simp <;> rfl

theorem bias0_eq : (V m c main_v25 : S1x64.Idx → EReal)
    = biasRow (m ((c : Thread nD τ).loc main_arg8)) (m ((c : Thread nD τ).loc main_arg9)) 0 slices_S1x256_S1x64_0_0 := by
  dsimp only [Gen.V, Gen.hostOps0]; after_results_simp <;> rfl

theorem bias1_eq : (V m c main_v26 : S1x64.Idx → EReal)
    = biasRow (m ((c : Thread nD τ).loc main_arg8)) (m ((c : Thread nD τ).loc main_arg9)) 64 slices_S1x256_S1x64_0_64 := by
  dsimp only [Gen.V, Gen.hostOps0]; after_results_simp <;> rfl

theorem bias2_eq : (V m c main_v27 : S1x64.Idx → EReal)
    = biasRow (m ((c : Thread nD τ).loc main_arg8)) (m ((c : Thread nD τ).loc main_arg9)) 128 slices_S1x256_S1x64_0_128 := by
  dsimp only [Gen.V, Gen.hostOps0]; after_results_simp <;> rfl

theorem bias3_eq : (V m c main_v28 : S1x64.Idx → EReal)
    = biasRow (m ((c : Thread nD τ).loc main_arg8)) (m ((c : Thread nD τ).loc main_arg9)) 192 slices_S1x256_S1x64_0_192 := by
  dsimp only [Gen.V, Gen.hostOps0]; after_results_simp <;> rfl

theorem ones_eq : (V m c main_v29 : S1x64.Idx → EReal)
    = broadcastInDim S1x64 ![] bcast_S_S1x64 (constant (F := Ideal) S_ .bf16 0x3F80#16) := by
  dsimp only [Gen.V, Gen.hostOps0]; after_results_simp <;> rfl

end Arrays

end Cert.KernelIdeal.Windows

end
-- ==== Proof.LstmTable.lean ====
/-
  The whole pairwise table after one step, as two functions of the ten argument arrays.

  Entry `(p, q, h)` of either table belongs to row `(p, q)`: the row's coordinate pair is `corr (p, q, ·)`, its hidden
  row `ht (p, q, ·)`, its mask the integer `nei (p, q)`. Gate `k` (input, forget, candidate, output) at column `h`
  reads row `64·k + h` of the input weight (256×32), of the hidden weight (256×64) and of the two bias vectors,
  the embedding reads the 32×2 weight transposed. The row is overwritten with weight `[nei (p, q) > 0]`.
-/
import proofs.«108195_g16716012716121_cont_week2b_1010_5_alg».proof.Proof.LibLstmStep
import Idealize.ShloMosaic.Lib.ValueIdx

noncomputable section

namespace Cert.Lstm

open Idealize.ShloMosaic Idealize.ShloMosaic.ValueIdx

/-- Row `64·k + h` of a 256-row weight: gate `k`, column `h`. -/
abbrev gateIdx (k : Fin 4) (h : Fin 64) : Fin 256 := ⟨64 * k.val + h.val, by have := k.isLt; have := h.isLt; omega⟩

/-- The weight of a row's overwrite: `1` where the row's integer is positive and `0` elsewhere, times the word for one. -/
def maskWeight (nei : BitVec 32) : EReal :=
  (((IntOp.cmpi .sgt nei 0#32).toNat : ℝ) : EReal) * Ideal.ofBits .bf16 0x3F80#16

/-- A gate row's two biases, summed. -/
def biasSum (bih bhh : (⟨1, ![256]⟩ : Shape).Idx → EReal) (g : Fin 256) : EReal := bih (ix1 g) + bhh (ix1 g)

/-- The product of two extended reals (a row's mask entry and the entry of the row of ones). -/
def times (a b : EReal) : EReal := a * b

/-- The hidden output depends on its row families only through their values. -/
theorem hiddenOut_congr {cr cr' : Fin 2 → EReal} {we we' : Fin 2 → Fin 32 → EReal} {be be' : Fin 32 → EReal}
    {hr hr' : Fin 64 → EReal} {wx wx' : Fin 4 → Fin 32 → EReal} {wh wh' : Fin 4 → Fin 64 → EReal}
    {bias bias' : Fin 4 → EReal} {c c' a a' μ μ' : EReal}
    (h1 : cr = cr') (h2 : we = we') (h3 : be = be') (h4 : hr = hr') (h5 : wx = wx') (h6 : wh = wh')
    (h7 : bias = bias') (h8 : c = c') (h9 : a = a') (h10 : μ = μ') :
    hiddenOut cr we be hr wx wh bias c a μ = hiddenOut cr' we' be' hr' wx' wh' bias' c' a' μ' := by
  subst h1 h2 h3 h4 h5 h6 h7 h8 h9 h10; rfl

/-- So does the cell output. -/
theorem cellOut_congr {cr cr' : Fin 2 → EReal} {we we' : Fin 2 → Fin 32 → EReal} {be be' : Fin 32 → EReal}
    {hr hr' : Fin 64 → EReal} {wx wx' : Fin 4 → Fin 32 → EReal} {wh wh' : Fin 4 → Fin 64 → EReal}
    {bias bias' : Fin 4 → EReal} {c c' μ μ' : EReal}
    (h1 : cr = cr') (h2 : we = we') (h3 : be = be') (h4 : hr = hr') (h5 : wx = wx') (h6 : wh = wh')
    (h7 : bias = bias') (h8 : c = c') (h10 : μ = μ') :
    cellOut cr we be hr wx wh bias c μ = cellOut cr' we' be' hr' wx' wh' bias' c' μ' := by
  subst h1 h2 h3 h4 h5 h6 h7 h8 h10; rfl

section Tables
variable (corr : (⟨3, ![512, 512, 2]⟩ : Shape).Idx → EReal) (ht ct : (⟨3, ![512, 512, 64]⟩ : Shape).Idx → EReal)
  (nei : (⟨2, ![512, 512]⟩ : Shape).Idx → BitVec 32)
  (wemb : (⟨2, ![32, 2]⟩ : Shape).Idx → EReal) (bemb : (⟨1, ![32]⟩ : Shape).Idx → EReal)
  (wih : (⟨2, ![256, 32]⟩ : Shape).Idx → EReal) (whh : (⟨2, ![256, 64]⟩ : Shape).Idx → EReal)
  (bih bhh : (⟨1, ![256]⟩ : Shape).Idx → EReal)

/-- The hidden-state table after the step. -/
def hiddenTable : (⟨3, ![512, 512, 64]⟩ : Shape).Idx → EReal := fun i =>
  hiddenOut (fun k => corr (ix3 (i 0) (i 1) k)) (fun k e => wemb (ix2 e k)) (fun e => bemb (ix1 e))
    (fun j => ht (ix3 (i 0) (i 1) j))
    (fun k e => wih (ix2 (gateIdx k (i 2)) e)) (fun k j => whh (ix2 (gateIdx k (i 2)) j))
    (fun k => biasSum bih bhh (gateIdx k (i 2)))
    (ct i) (ht i) (maskWeight (nei (ix2 (i 0) (i 1))))

/-- The cell-state table after the step. -/
def cellTable : (⟨3, ![512, 512, 64]⟩ : Shape).Idx → EReal := fun i =>
  cellOut (fun k => corr (ix3 (i 0) (i 1) k)) (fun k e => wemb (ix2 e k)) (fun e => bemb (ix1 e))
    (fun j => ht (ix3 (i 0) (i 1) j))
    (fun k e => wih (ix2 (gateIdx k (i 2)) e)) (fun k j => whh (ix2 (gateIdx k (i 2)) j))
    (fun k => biasSum bih bhh (gateIdx k (i 2)))
    (ct i) (maskWeight (nei (ix2 (i 0) (i 1))))

end Tables

end Cert.Lstm

end
-- ==== Proof.Blocks.lean ====
/-
  From blocks to the two tables.

  The grid has 64 points; point `t` works on table rows `(8·t + a, b)`, `a < 8`, `b < 512` — rows
  `4096·t … 4096·t + 4095` of the flattened table — and writes back the 8×512×64 blocks at first coordinate `8·t` of
  both outputs; the weight, bias and ones windows stay on their only block. Every block read is the argument
  arrays at explicit indices, so what point `t` writes back is block `t` of the step's table, and as the blocks tile
  the arrays each output ends as the whole table.
-/
import proofs.«108195_g16716012716121_cont_week2b_1010_5_alg».proof.Proof.Gen.KernelIdeal.Frame
import proofs.«108195_g16716012716121_cont_week2b_1010_5_alg».proof.Proof.Body
import proofs.«108195_g16716012716121_cont_week2b_1010_5_alg».proof.Proof.Windows
import proofs.«108195_g16716012716121_cont_week2b_1010_5_alg».proof.Proof.LstmTable
import Idealize.ShloMosaic.Lib.Pipeline.Value
import Idealize.ShloMosaic.Lib.ValueIdx

noncomputable section

namespace Cert.KernelIdeal.Blocks

open Cert.KernelIdeal Cert.KernelIdeal.Gen Cert.KernelIdeal.Body Cert.KernelIdeal.Windows Idealize.ShloMosaic
  Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps of the windows that move with the grid point, decided over the 64 points: block `t` along the
    first axis, block `0` along the others. -/
theorem idx_moving : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_15.index t (0 : Fin 3) = t.val ∧ win0_15.index t (1 : Fin 3) = 0 ∧ win0_15.index t (2 : Fin 3) = 0
    ∧ win0_16.index t (0 : Fin 3) = t.val ∧ win0_16.index t (1 : Fin 3) = 0 ∧ win0_16.index t (2 : Fin 3) = 0 :=
  (by decide +kernel : ∀ t : Fin grid0.N, _)

theorem point_lt (t : Fin cfg0.N) : t.val < 64 := lt_of_lt_of_eq t.isLt N_0

/-- The first table coordinate of block coordinate `a` at point `t`. -/
abbrev gp (t : Fin cfg0.N) (a : Fin 8) : Fin 512 := ⟨t.val * 8 + a.val, by have := point_lt t; have := a.isLt; omega⟩
/-- The flattened table's row of block row `r` at point `t`. -/
abbrev tableRow (t : Fin cfg0.N) (r : Fin 4096) : Fin 262144 :=
  ⟨t.val * 4096 + r.val, by have := point_lt t; have := r.isLt; omega⟩

theorem hi_tableRow (t : Fin cfg0.N) (a : Fin 8) (b : Fin 512) : hi (tableRow t (rowOf a b)) = gp t a :=
  Fin.ext (by show (t.val * 4096 + (a.val * 512 + b.val)) / 512 = t.val * 8 + a.val; have := b.isLt; omega)
theorem lo_tableRow (t : Fin cfg0.N) (a : Fin 8) (b : Fin 512) : lo (tableRow t (rowOf a b)) = b :=
  Fin.ext (by show (t.val * 4096 + (a.val * 512 + b.val)) % 512 = b.val; have := b.isLt; omega)

/-! ## The windows that stay on one block -/

theorem idx_fixed4 : ∀ t : Fin cfg0.N, win0_4.index t (0 : Fin 2) = 0 ∧ win0_4.index t (1 : Fin 2) = 0 :=
  (by decide +kernel : ∀ t : Fin grid0.N, _)

theorem fixed4 (c : Dev nD) (t : Fin cfg0.N) (y : S2x32.Idx) :
    (iblk m c 4 t : Vec Ideal S2x32 .f32) y = (V m c main_v5 : S2x32.Idx → EReal) y := by
  obtain ⟨e0, e1⟩ := idx_fixed4 t
  have h : ((cfg0.win 4).blk t).view.emb y = y := by
    funext a; apply Fin.ext
    match a with
    | ⟨0, _⟩ => show win0_4.index t (0 : Fin 2) * 2 + 1 * (y 0).val = (y 0).val; rw [e0]; omega
    | ⟨1, _⟩ => show win0_4.index t (1 : Fin 2) * 32 + 1 * (y 1).val = (y 1).val; rw [e1]; omega
  show (V m c main_v5 : S2x32.Idx → EReal) (((cfg0.win 4).blk t).view.emb y) = _
  rw [h]

theorem idx_fixed5 : ∀ t : Fin cfg0.N, win0_5.index t (0 : Fin 2) = 0 ∧ win0_5.index t (1 : Fin 2) = 0 :=
  (by decide +kernel : ∀ t : Fin grid0.N, _)

theorem fixed5 (c : Dev nD) (t : Fin cfg0.N) (y : S1x32.Idx) :
    (iblk m c 5 t : Vec Ideal S1x32 .f32) y = (V m c main_v6 : S1x32.Idx → EReal) y := by
  obtain ⟨e0, e1⟩ := idx_fixed5 t
  have h : ((cfg0.win 5).blk t).view.emb y = y := by
    funext a; apply Fin.ext
    match a with
    | ⟨0, _⟩ => show win0_5.index t (0 : Fin 2) * 1 + 1 * (y 0).val = (y 0).val; rw [e0]; omega
    | ⟨1, _⟩ => show win0_5.index t (1 : Fin 2) * 32 + 1 * (y 1).val = (y 1).val; rw [e1]; omega
  show (V m c main_v6 : S1x32.Idx → EReal) (((cfg0.win 5).blk t).view.emb y) = _
  rw [h]

theorem idx_fixed6 : ∀ t : Fin cfg0.N, win0_6.index t (0 : Fin 2) = 0 ∧ win0_6.index t (1 : Fin 2) = 0 :=
  (by decide +kernel : ∀ t : Fin grid0.N, _)

theorem fixed6 (c : Dev nD) (t : Fin cfg0.N) (y : S96x64.Idx) :
    (iblk m c 6 t : Vec Ideal S96x64 .bf16) y = (V m c main_v15 : S96x64.Idx → EReal) y := by
  obtain ⟨e0, e1⟩ := idx_fixed6 t
  have h : ((cfg0.win 6).blk t).view.emb y = y := by
    funext a; apply Fin.ext
    match a with
    | ⟨0, _⟩ => show win0_6.index t (0 : Fin 2) * 96 + 1 * (y 0).val = (y 0).val; rw [e0]; omega
    | ⟨1, _⟩ => show win0_6.index t (1 : Fin 2) * 64 + 1 * (y 1).val = (y 1).val; rw [e1]; omega
  show (V m c main_v15 : S96x64.Idx → EReal) (((cfg0.win 6).blk t).view.emb y) = _
  rw [h]

theorem idx_fixed7 : ∀ t : Fin cfg0.N, win0_7.index t (0 : Fin 2) = 0 ∧ win0_7.index t (1 : Fin 2) = 0 :=
  (by decide +kernel : ∀ t : Fin grid0.N, _)

theorem fixed7 (c : Dev nD) (t : Fin cfg0.N) (y : S96x64.Idx) :
    (iblk m c 7 t : Vec Ideal S96x64 .bf16) y = (V m c main_v18 : S96x64.Idx → EReal) y := by
  obtain ⟨e0, e1⟩ := idx_fixed7 t
  have h : ((cfg0.win 7).blk t).view.emb y = y := by
    funext a; apply Fin.ext
    match a with
    | ⟨0, _⟩ => show win0_7.index t (0 : Fin 2) * 96 + 1 * (y 0).val = (y 0).val; rw [e0]; omega
    | ⟨1, _⟩ => show win0_7.index t (1 : Fin 2) * 64 + 1 * (y 1).val = (y 1).val; rw [e1]; omega
  show (V m c main_v18 : S96x64.Idx → EReal) (((cfg0.win 7).blk t).view.emb y) = _
  rw [h]

theorem idx_fixed8 : ∀ t : Fin cfg0.N, win0_8.index t (0 : Fin 2) = 0 ∧ win0_8.index t (1 : Fin 2) = 0 :=
  (by decide +kernel : ∀ t : Fin grid0.N, _)

theorem fixed8 (c : Dev nD) (t : Fin cfg0.N) (y : S96x64.Idx) :
    (iblk m c 8 t : Vec Ideal S96x64 .bf16) y = (V m c main_v21 : S96x64.Idx → EReal) y := by
  obtain ⟨e0, e1⟩ := idx_fixed8 t
  have h : ((cfg0.win 8).blk t).view.emb y = y := by
    funext a; apply Fin.ext
    match a with
    | ⟨0, _⟩ => show win0_8.index t (0 : Fin 2) * 96 + 1 * (y 0).val = (y 0).val; rw [e0]; omega
    | ⟨1, _⟩ => show win0_8.index t (1 : Fin 2) * 64 + 1 * (y 1).val = (y 1).val; rw [e1]; omega
  show (V m c main_v21 : S96x64.Idx → EReal) (((cfg0.win 8).blk t).view.emb y) = _
  rw [h]

theorem idx_fixed9 : ∀ t : Fin cfg0.N, win0_9.index t (0 : Fin 2) = 0 ∧ win0_9.index t (1 : Fin 2) = 0 :=
  (by decide +kernel : ∀ t : Fin grid0.N, _)

theorem fixed9 (c : Dev nD) (t : Fin cfg0.N) (y : S96x64.Idx) :
    (iblk m c 9 t : Vec Ideal S96x64 .bf16) y = (V m c main_v24 : S96x64.Idx → EReal) y := by
  obtain ⟨e0, e1⟩ := idx_fixed9 t
  have h : ((cfg0.win 9).blk t).view.emb y = y := by
    funext a; apply Fin.ext
    match a with
    | ⟨0, _⟩ => show win0_9.index t (0 : Fin 2) * 96 + 1 * (y 0).val = (y 0).val; rw [e0]; omega
    | ⟨1, _⟩ => show win0_9.index t (1 : Fin 2) * 64 + 1 * (y 1).val = (y 1).val; rw [e1]; omega
  show (V m c main_v24 : S96x64.Idx → EReal) (((cfg0.win 9).blk t).view.emb y) = _
  rw [h]

theorem idx_fixed10 : ∀ t : Fin cfg0.N, win0_10.index t (0 : Fin 2) = 0 ∧ win0_10.index t (1 : Fin 2) = 0 :=
  (by decide +kernel : ∀ t : Fin grid0.N, _)

theorem fixed10 (c : Dev nD) (t : Fin cfg0.N) (y : S1x64.Idx) :
    (iblk m c 10 t : Vec Ideal S1x64 .f32) y = (V m c main_v25 : S1x64.Idx → EReal) y := by
  obtain ⟨e0, e1⟩ := idx_fixed10 t
  have h : ((cfg0.win 10).blk t).view.emb y = y := by
    funext a; apply Fin.ext
    match a with
    | ⟨0, _⟩ => show win0_10.index t (0 : Fin 2) * 1 + 1 * (y 0).val = (y 0).val; rw [e0]; omega
    | ⟨1, _⟩ => show win0_10.index t (1 : Fin 2) * 64 + 1 * (y 1).val = (y 1).val; rw [e1]; omega
  show (V m c main_v25 : S1x64.Idx → EReal) (((cfg0.win 10).blk t).view.emb y) = _
  rw [h]

theorem idx_fixed11 : ∀ t : Fin cfg0.N, win0_11.index t (0 : Fin 2) = 0 ∧ win0_11.index t (1 : Fin 2) = 0 :=
  (by decide +kernel : ∀ t : Fin grid0.N, _)

theorem fixed11 (c : Dev nD) (t : Fin cfg0.N) (y : S1x64.Idx) :
    (iblk m c 11 t : Vec Ideal S1x64 .f32) y = (V m c main_v26 : S1x64.Idx → EReal) y := by
  obtain ⟨e0, e1⟩ := idx_fixed11 t
  have h : ((cfg0.win 11).blk t).view.emb y = y := by
    funext a; apply Fin.ext
    match a with
    | ⟨0, _⟩ => show win0_11.index t (0 : Fin 2) * 1 + 1 * (y 0).val = (y 0).val; rw [e0]; omega
    | ⟨1, _⟩ => show win0_11.index t (1 : Fin 2) * 64 + 1 * (y 1).val = (y 1).val; rw [e1]; omega
  show (V m c main_v26 : S1x64.Idx → EReal) (((cfg0.win 11).blk t).view.emb y) = _
  rw [h]

theorem idx_fixed12 : ∀ t : Fin cfg0.N, win0_12.index t (0 : Fin 2) = 0 ∧ win0_12.index t (1 : Fin 2) = 0 :=
  (by decide +kernel : ∀ t : Fin grid0.N, _)

theorem fixed12 (c : Dev nD) (t : Fin cfg0.N) (y : S1x64.Idx) :
    (iblk m c 12 t : Vec Ideal S1x64 .f32) y = (V m c main_v27 : S1x64.Idx → EReal) y := by
  obtain ⟨e0, e1⟩ := idx_fixed12 t
  have h : ((cfg0.win 12).blk t).view.emb y = y := by
    funext a; apply Fin.ext
    match a with
    | ⟨0, _⟩ => show win0_12.index t (0 : Fin 2) * 1 + 1 * (y 0).val = (y 0).val; rw [e0]; omega
    | ⟨1, _⟩ => show win0_12.index t (1 : Fin 2) * 64 + 1 * (y 1).val = (y 1).val; rw [e1]; omega
  show (V m c main_v27 : S1x64.Idx → EReal) (((cfg0.win 12).blk t).view.emb y) = _
  rw [h]

theorem idx_fixed13 : ∀ t : Fin cfg0.N, win0_13.index t (0 : Fin 2) = 0 ∧ win0_13.index t (1 : Fin 2) = 0 :=
  (by decide +kernel : ∀ t : Fin grid0.N, _)

theorem fixed13 (c : Dev nD) (t : Fin cfg0.N) (y : S1x64.Idx) :
    (iblk m c 13 t : Vec Ideal S1x64 .f32) y = (V m c main_v28 : S1x64.Idx → EReal) y := by
  obtain ⟨e0, e1⟩ := idx_fixed13 t
  have h : ((cfg0.win 13).blk t).view.emb y = y := by
    funext a; apply Fin.ext
    match a with
    | ⟨0, _⟩ => show win0_13.index t (0 : Fin 2) * 1 + 1 * (y 0).val = (y 0).val; rw [e0]; omega
    | ⟨1, _⟩ => show win0_13.index t (1 : Fin 2) * 64 + 1 * (y 1).val = (y 1).val; rw [e1]; omega
  show (V m c main_v28 : S1x64.Idx → EReal) (((cfg0.win 13).blk t).view.emb y) = _
  rw [h]

theorem idx_fixed14 : ∀ t : Fin cfg0.N, win0_14.index t (0 : Fin 2) = 0 ∧ win0_14.index t (1 : Fin 2) = 0 :=
  (by decide +kernel : ∀ t : Fin grid0.N, _)

theorem fixed14 (c : Dev nD) (t : Fin cfg0.N) (y : S1x64.Idx) :
    (iblk m c 14 t : Vec Ideal S1x64 .bf16) y = (V m c main_v29 : S1x64.Idx → EReal) y := by
  obtain ⟨e0, e1⟩ := idx_fixed14 t
  have h : ((cfg0.win 14).blk t).view.emb y = y := by
    funext a; apply Fin.ext
    match a with
    | ⟨0, _⟩ => show win0_14.index t (0 : Fin 2) * 1 + 1 * (y 0).val = (y 0).val; rw [e0]; omega
    | ⟨1, _⟩ => show win0_14.index t (1 : Fin 2) * 64 + 1 * (y 1).val = (y 1).val; rw [e1]; omega
  show (V m c main_v29 : S1x64.Idx → EReal) (((cfg0.win 14).blk t).view.emb y) = _
  rw [h]

/-! ## The windows that move with the point -/

theorem pairs_block (c : Dev nD) (t : Fin cfg0.N) (r : Fin 4096) (k : Fin 2) :
    (iblk m c 0 t : Vec Ideal S4096x2 .f32) (ix2 r k)
      = m ((c : Thread nD τ).loc main_arg0) (ix3 (hi (tableRow t r)) (lo (tableRow t r)) k) := by
  obtain ⟨e0, e1, -⟩ := idx_moving t
  have h : ((cfg0.win 0).blk t).view.emb (ix2 r k) = ix2 (tableRow t r) k := by
    funext a; apply Fin.ext
    match a with
    | ⟨0, _⟩ => show win0_0.index t (0 : Fin 2) * 4096 + 1 * r.val = t.val * 4096 + r.val; rw [e0]; omega
    | ⟨1, _⟩ => show win0_0.index t (1 : Fin 2) * 2 + 1 * k.val = k.val; rw [e1]; omega
  show (V m c main_v0 : S262144x2.Idx → EReal) (((cfg0.win 0).blk t).view.emb (ix2 r k)) = _
  rw [h, pairs_eq, pairs_apply]

theorem hidden_block (c : Dev nD) (t : Fin cfg0.N) (a : Fin 8) (b : Fin 512) (h : Fin 64) :
    (iblk m c 1 t : Vec Ideal S8x512x64 .f32) (ix3 a b h) = m ((c : Thread nD τ).loc main_arg1) (ix3 (gp t a) b h) := by
  obtain ⟨-, -, e0, e1, e2, -⟩ := idx_moving t
  have hh : ((cfg0.win 1).blk t).view.emb (ix3 a b h) = ix3 (gp t a) b h := by
    funext ax; apply Fin.ext
    match ax with
    | ⟨0, _⟩ => show win0_1.index t (0 : Fin 3) * 8 + 1 * a.val = t.val * 8 + a.val; rw [e0]; omega
    | ⟨1, _⟩ => show win0_1.index t (1 : Fin 3) * 512 + 1 * b.val = b.val; rw [e1]; omega
    | ⟨2, _⟩ => show win0_1.index t (2 : Fin 3) * 64 + 1 * h.val = h.val; rw [e2]; omega
  show (V m c main_arg1 : S512x512x64.Idx → EReal) (((cfg0.win 1).blk t).view.emb (ix3 a b h)) = _
  rw [hh, V_main_arg1]

theorem cell_block (c : Dev nD) (t : Fin cfg0.N) (a : Fin 8) (b : Fin 512) (h : Fin 64) :
    (iblk m c 2 t : Vec Ideal S8x512x64 .f32) (ix3 a b h) = m ((c : Thread nD τ).loc main_arg2) (ix3 (gp t a) b h) := by
  obtain ⟨-, -, -, -, -, e0, e1, e2, -⟩ := idx_moving t
  have hh : ((cfg0.win 2).blk t).view.emb (ix3 a b h) = ix3 (gp t a) b h := by
    funext ax; apply Fin.ext
    match ax with
    | ⟨0, _⟩ => show win0_2.index t (0 : Fin 3) * 8 + 1 * a.val = t.val * 8 + a.val; rw [e0]; omega
    | ⟨1, _⟩ => show win0_2.index t (1 : Fin 3) * 512 + 1 * b.val = b.val; rw [e1]; omega
    | ⟨2, _⟩ => show win0_2.index t (2 : Fin 3) * 64 + 1 * h.val = h.val; rw [e2]; omega
  show (V m c main_arg2 : S512x512x64.Idx → EReal) (((cfg0.win 2).blk t).view.emb (ix3 a b h)) = _
  rw [hh, V_main_arg2]

theorem mask_block (c : Dev nD) (t : Fin cfg0.N) (r : Fin 4096) :
    (iblk m c 3 t : Vec Ideal S4096x1 .bf16) (ix2 r 0)
      = (((IntOp.cmpi .sgt (m ((c : Thread nD τ).loc main_arg3) (ix2 (hi (tableRow t r)) (lo (tableRow t r)))) 0#32).toNat : ℝ) : EReal) := by
  obtain ⟨-, -, -, -, -, -, -, -, e0, e1, -⟩ := idx_moving t
  have h : ((cfg0.win 3).blk t).view.emb (ix2 r 0) = ix2 (tableRow t r) 0 := by
    funext a; apply Fin.ext
    match a with
    | ⟨0, _⟩ => show win0_3.index t (0 : Fin 2) * 4096 + 1 * r.val = t.val * 4096 + r.val; rw [e0]; omega
    | ⟨1, _⟩ => show win0_3.index t (1 : Fin 2) * 1 + 1 * 0 = 0; rw [e1]
  show (V m c main_v4 : S262144x1.Idx → EReal) (((cfg0.win 3).blk t).view.emb (ix2 r 0)) = _
  rw [h, mask_eq]
  show (((IntOp.cmpi .sgt (shapeCast S262144x1 (m ((c : Thread nD τ).loc main_arg3)) shapeCasts_S512x512_S262144x1 (ix2 (tableRow t r) 0)) 0#32).toNat : ℝ) : EReal) = _
  rw [column_apply]

theorem out_index15 (t : Fin cfg0.N) (a : Fin 8) (b : Fin 512) (h : Fin 64) :
    ((cfg0.win 15).blk t).view.emb (ix3 a b h) = ix3 (gp t a) b h := by
  obtain ⟨-, -, -, -, -, -, -, -, -, -, e0, e1, e2, -⟩ := idx_moving t
  funext ax; apply Fin.ext
  match ax with
  | ⟨0, _⟩ => show win0_15.index t (0 : Fin 3) * 8 + 1 * a.val = t.val * 8 + a.val; rw [e0]; omega
  | ⟨1, _⟩ => show win0_15.index t (1 : Fin 3) * 512 + 1 * b.val = b.val; rw [e1]; omega
  | ⟨2, _⟩ => show win0_15.index t (2 : Fin 3) * 64 + 1 * h.val = h.val; rw [e2]; omega

theorem out_index16 (t : Fin cfg0.N) (a : Fin 8) (b : Fin 512) (h : Fin 64) :
    ((cfg0.win 16).blk t).view.emb (ix3 a b h) = ix3 (gp t a) b h := by
  obtain ⟨-, -, -, -, -, -, -, -, -, -, -, -, -, e0, e1, e2⟩ := idx_moving t
  funext ax; apply Fin.ext
  match ax with
  | ⟨0, _⟩ => show win0_16.index t (0 : Fin 3) * 8 + 1 * a.val = t.val * 8 + a.val; rw [e0]; omega
  | ⟨1, _⟩ => show win0_16.index t (1 : Fin 3) * 512 + 1 * b.val = b.val; rw [e1]; omega
  | ⟨2, _⟩ => show win0_16.index t (2 : Fin 3) * 64 + 1 * h.val = h.val; rw [e2]; omega

theorem gate0_top (c : Dev nD) (t : Fin cfg0.N) (e : Fin 32) (h : Fin 64) :
    (iblk m c 6 t : Vec Ideal S96x64 .bf16) (ix2 (topRow e) h)
      = m ((c : Thread nD τ).loc main_arg6) (ix2 (Lstm.gateIdx 0 h) e) := by
  rw [fixed6, gate0_eq, gateBlock_top _ _ 0 (by norm_num)]; rfl

theorem gate0_bot (c : Dev nD) (t : Fin cfg0.N) (j : Fin 64) (h : Fin 64) :
    (iblk m c 6 t : Vec Ideal S96x64 .bf16) (ix2 (botRow j) h)
      = m ((c : Thread nD τ).loc main_arg7) (ix2 (Lstm.gateIdx 0 h) j) := by
  rw [fixed6, gate0_eq, gateBlock_bot _ _ 0 (by norm_num)]; rfl

theorem gate0_bias (c : Dev nD) (t : Fin cfg0.N) (h : Fin 64) :
    (iblk m c 10 t : Vec Ideal S1x64 .f32) (ix2 0 h)
      = Lstm.biasSum (m ((c : Thread nD τ).loc main_arg8)) (m ((c : Thread nD τ).loc main_arg9)) (Lstm.gateIdx 0 h) := by
  rw [fixed10, bias0_eq, biasRow_apply _ _ 0 (by norm_num)]; rfl

theorem gate1_top (c : Dev nD) (t : Fin cfg0.N) (e : Fin 32) (h : Fin 64) :
    (iblk m c 7 t : Vec Ideal S96x64 .bf16) (ix2 (topRow e) h)
      = m ((c : Thread nD τ).loc main_arg6) (ix2 (Lstm.gateIdx 1 h) e) := by
  rw [fixed7, gate1_eq, gateBlock_top _ _ 64 (by norm_num)]; rfl

theorem gate1_bot (c : Dev nD) (t : Fin cfg0.N) (j : Fin 64) (h : Fin 64) :
    (iblk m c 7 t : Vec Ideal S96x64 .bf16) (ix2 (botRow j) h)
      = m ((c : Thread nD τ).loc main_arg7) (ix2 (Lstm.gateIdx 1 h) j) := by
  rw [fixed7, gate1_eq, gateBlock_bot _ _ 64 (by norm_num)]; rfl

theorem gate1_bias (c : Dev nD) (t : Fin cfg0.N) (h : Fin 64) :
    (iblk m c 11 t : Vec Ideal S1x64 .f32) (ix2 0 h)
      = Lstm.biasSum (m ((c : Thread nD τ).loc main_arg8)) (m ((c : Thread nD τ).loc main_arg9)) (Lstm.gateIdx 1 h) := by
  rw [fixed11, bias1_eq, biasRow_apply _ _ 64 (by norm_num)]; rfl

theorem gate2_top (c : Dev nD) (t : Fin cfg0.N) (e : Fin 32) (h : Fin 64) :
    (iblk m c 8 t : Vec Ideal S96x64 .bf16) (ix2 (topRow e) h)
      = m ((c : Thread nD τ).loc main_arg6) (ix2 (Lstm.gateIdx 2 h) e) := by
  rw [fixed8, gate2_eq, gateBlock_top _ _ 128 (by norm_num)]; rfl

theorem gate2_bot (c : Dev nD) (t : Fin cfg0.N) (j : Fin 64) (h : Fin 64) :
    (iblk m c 8 t : Vec Ideal S96x64 .bf16) (ix2 (botRow j) h)
      = m ((c : Thread nD τ).loc main_arg7) (ix2 (Lstm.gateIdx 2 h) j) := by
  rw [fixed8, gate2_eq, gateBlock_bot _ _ 128 (by norm_num)]; rfl

theorem gate2_bias (c : Dev nD) (t : Fin cfg0.N) (h : Fin 64) :
    (iblk m c 12 t : Vec Ideal S1x64 .f32) (ix2 0 h)
      = Lstm.biasSum (m ((c : Thread nD τ).loc main_arg8)) (m ((c : Thread nD τ).loc main_arg9)) (Lstm.gateIdx 2 h) := by
  rw [fixed12, bias2_eq, biasRow_apply _ _ 128 (by norm_num)]; rfl

theorem gate3_top (c : Dev nD) (t : Fin cfg0.N) (e : Fin 32) (h : Fin 64) :
    (iblk m c 9 t : Vec Ideal S96x64 .bf16) (ix2 (topRow e) h)
      = m ((c : Thread nD τ).loc main_arg6) (ix2 (Lstm.gateIdx 3 h) e) := by
  rw [fixed9, gate3_eq, gateBlock_top _ _ 192 (by norm_num)]; rfl

theorem gate3_bot (c : Dev nD) (t : Fin cfg0.N) (j : Fin 64) (h : Fin 64) :
    (iblk m c 9 t : Vec Ideal S96x64 .bf16) (ix2 (botRow j) h)
      = m ((c : Thread nD τ).loc main_arg7) (ix2 (Lstm.gateIdx 3 h) j) := by
  rw [fixed9, gate3_eq, gateBlock_bot _ _ 192 (by norm_num)]; rfl

theorem gate3_bias (c : Dev nD) (t : Fin cfg0.N) (h : Fin 64) :
    (iblk m c 13 t : Vec Ideal S1x64 .f32) (ix2 0 h)
      = Lstm.biasSum (m ((c : Thread nD τ).loc main_arg8)) (m ((c : Thread nD τ).loc main_arg9)) (Lstm.gateIdx 3 h) := by
  rw [fixed13, bias3_eq, biasRow_apply _ _ 192 (by norm_num)]; rfl

/-! ## The row families a point's blocks give, as the argument arrays' -/

theorem gates_top (c : Dev nD) (t : Fin cfg0.N) (h : Fin 64) :
    (fun (k : Fin 4) (e : Fin 32) => (![(iblk m c 6 t : Vec Ideal S96x64 .bf16), iblk m c 7 t, iblk m c 8 t, iblk m c 9 t] k) (ix2 (topRow e) h))
      = fun k e => m ((c : Thread nD τ).loc main_arg6) (ix2 (Lstm.gateIdx k h) e) := by
  funext k e
  fin_cases k
  · exact gate0_top m c t e h
  · exact gate1_top m c t e h
  · exact gate2_top m c t e h
  · exact gate3_top m c t e h

theorem gates_bot (c : Dev nD) (t : Fin cfg0.N) (h : Fin 64) :
    (fun (k : Fin 4) (j : Fin 64) => (![(iblk m c 6 t : Vec Ideal S96x64 .bf16), iblk m c 7 t, iblk m c 8 t, iblk m c 9 t] k) (ix2 (botRow j) h))
      = fun k j => m ((c : Thread nD τ).loc main_arg7) (ix2 (Lstm.gateIdx k h) j) := by
  funext k j
  fin_cases k
  · exact gate0_bot m c t j h
  · exact gate1_bot m c t j h
  · exact gate2_bot m c t j h
  · exact gate3_bot m c t j h

theorem gates_bias (c : Dev nD) (t : Fin cfg0.N) (h : Fin 64) :
    (fun (k : Fin 4) => (![(iblk m c 10 t : Vec Ideal S1x64 .f32), iblk m c 11 t, iblk m c 12 t, iblk m c 13 t] k) (ix2 0 h))
      = fun k => Lstm.biasSum (m ((c : Thread nD τ).loc main_arg8)) (m ((c : Thread nD τ).loc main_arg9)) (Lstm.gateIdx k h) := by
  funext k
  fin_cases k
  · exact gate0_bias m c t h
  · exact gate1_bias m c t h
  · exact gate2_bias m c t h
  · exact gate3_bias m c t h

theorem pair_family (c : Dev nD) (t : Fin cfg0.N) (a : Fin 8) (b : Fin 512) :
    (fun k : Fin 2 => (iblk m c 0 t : Vec Ideal S4096x2 .f32) (ix2 (rowOf a b) k))
      = fun k => m ((c : Thread nD τ).loc main_arg0) (ix3 (gp t a) b k) := by
  funext k
  rw [pairs_block, hi_tableRow, lo_tableRow]

theorem wemb_family (c : Dev nD) (t : Fin cfg0.N) :
    (fun (k : Fin 2) (e : Fin 32) => (iblk m c 4 t : Vec Ideal S2x32 .f32) (ix2 k e))
      = fun k e => m ((c : Thread nD τ).loc main_arg4) (ix2 e k) := by
  funext k e
  rw [fixed4, wemb_eq]
  exact swap_apply _ _ k e

theorem bemb_family (c : Dev nD) (t : Fin cfg0.N) :
    (fun e : Fin 32 => (iblk m c 5 t : Vec Ideal S1x32 .f32) (ix2 0 e)) = fun e => m ((c : Thread nD τ).loc main_arg5) (ix1 e) := by
  funext e
  rw [fixed5, bemb_eq]
  exact row_of_vector_apply _ e

theorem hidden_family (c : Dev nD) (t : Fin cfg0.N) (a : Fin 8) (b : Fin 512) :
    (fun j : Fin 64 => (iblk m c 1 t : Vec Ideal S8x512x64 .f32) (ix3 a b j))
      = fun j => m ((c : Thread nD τ).loc main_arg1) (ix3 (gp t a) b j) := by
  funext j
  rw [hidden_block]

/-- The weight of the overwrite of row `(8·t + a, b)`. -/
theorem weight_entry (c : Dev nD) (t : Fin cfg0.N) (a : Fin 8) (b : Fin 512) (h : Fin 64) :
    Lstm.times ((iblk m c 3 t : Vec Ideal S4096x1 .bf16) (ix2 (rowOf a b) 0)) ((iblk m c 14 t : Vec Ideal S1x64 .bf16) (ix2 0 h))
      = Lstm.maskWeight (m ((c : Thread nD τ).loc main_arg3) (ix2 (gp t a) b)) := by
  rw [mask_block, hi_tableRow, lo_tableRow, fixed14, ones_eq]
  rfl

/-! ## What a point writes back -/

/-- Point `t` writes back block `t` of the hidden-state table. -/
theorem flushed_hidden (c : Dev nD) (t : Fin cfg0.N) :
    (dats m 0 c).flushed 15 t
      = ((cfg0.win 15).blk t).view.read (Elt Ideal) (Lstm.hiddenTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show (cfg0.win 15).cut (grid0.coords t) ((dats m 0 c).after 15 t) = _
  rw [after0_15]
  unfold out0_15
  rw [View.canon_unit_zero hz3]
  simp only [View.ld_unit_zero (S := S4096x2) hz2, View.ld_unit_zero (S := S8x512x64) hz3, View.ld_unit_zero (S := S4096x1) hz2,
    View.ld_unit_zero (S := S2x32) hz2, View.ld_unit_zero (S := S1x32) hz2, View.ld_unit_zero (S := S96x64) hz2,
    View.ld_unit_zero (S := S1x64) hz2]
  funext y
  obtain ⟨a, b, h, rfl⟩ : ∃ (a : Fin 8) (b : Fin 512) (h : Fin 64), y = ix3 a b h := ⟨y 0, y 1, y 2, eq_ix3 y⟩
  refine (hidden_store_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a b h).trans ?_
  show _ = Lstm.hiddenTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 15).blk t).view.emb (ix3 a b h))
  rw [out_index15]
  unfold Lstm.hiddenTable
  exact Lstm.hiddenOut_congr (pair_family m c t a b) (wemb_family m c t) (bemb_family m c t) (hidden_family m c t a b)
    (gates_top m c t h) (gates_bot m c t h) (gates_bias m c t h) (cell_block m c t a b h) (hidden_block m c t a b h) (weight_entry m c t a b h)

/-- Point `t` writes back block `t` of the cell-state table. -/
theorem flushed_cell (c : Dev nD) (t : Fin cfg0.N) :
    (dats m 0 c).flushed 16 t
      = ((cfg0.win 16).blk t).view.read (Elt Ideal) (Lstm.cellTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show (cfg0.win 16).cut (grid0.coords t) ((dats m 0 c).after 16 t) = _
  rw [after0_16]
  unfold out0_16
  rw [View.canon_unit_zero hz3]
  simp only [View.ld_unit_zero (S := S4096x2) hz2, View.ld_unit_zero (S := S8x512x64) hz3, View.ld_unit_zero (S := S4096x1) hz2,
    View.ld_unit_zero (S := S2x32) hz2, View.ld_unit_zero (S := S1x32) hz2, View.ld_unit_zero (S := S96x64) hz2,
    View.ld_unit_zero (S := S1x64) hz2]
  funext y
  obtain ⟨a, b, h, rfl⟩ : ∃ (a : Fin 8) (b : Fin 512) (h : Fin 64), y = ix3 a b h := ⟨y 0, y 1, y 2, eq_ix3 y⟩
  refine (cell_store_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) a b h).trans ?_
  show _ = Lstm.cellTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 16).blk t).view.emb (ix3 a b h))
  rw [out_index16]
  unfold Lstm.cellTable
  exact Lstm.cellOut_congr (pair_family m c t a b) (wemb_family m c t) (bemb_family m c t) (hidden_family m c t a b)
    (gates_top m c t h) (gates_bot m c t h) (gates_bias m c t h) (cell_block m c t a b h) (weight_entry m c t a b h)

end Cert.KernelIdeal.Blocks

end
-- ==== Proof.KernelRun.lean ====
/-
  The idealized kernel's run with both results named.

  The 64 blocks of each output tile its array (index `(p, q, h)` is in the block of point `p / 8`), and each point
  writes back its block of the step's table; so after the run the two outputs are the hidden-state table and the
  cell-state table of the ten arguments, which the run leaves as they were.
-/
import proofs.«108195_g16716012716121_cont_week2b_1010_5_alg».proof.Proof.Blocks

noncomputable section

namespace Cert.KernelIdeal.Tables

open Cert.KernelIdeal Cert.KernelIdeal.Gen Cert.KernelIdeal.Blocks Idealize.ShloMosaic
  Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- An index of the array lies in point `t`'s block of output window 15 iff each coordinate lies in the block's range. -/
theorem mem_block15 (t : Fin cfg0.N) (i : S512x512x64.Idx) :
    i ∈ ((cfg0.win 15).blk t).view.set ↔ ∀ a : Fin 3, win0_15.index t a * S8x512x64.size a ≤ (i a).val
      ∧ (i a).val < win0_15.index t a * S8x512x64.size a + S8x512x64.size a := by
  show i ∈ ((View.whole main_v30_0).slice (win0_15.rect t)).set ↔ _
  rw [View.set_slice_whole, Rect.mem_set_unit]
  exact Iff.rfl

/-- Every index `(p, q, h)` of the array is in the block of point `p / 8`. -/
theorem cover15 (i : S512x512x64.Idx) :
    ∃ t : Fin cfg0.N, (cfg0.win 15).flush t = true ∧ i ∈ ((cfg0.win 15).blk t).view.set := by
  have hi0 : (i 0).val < 512 := (i 0).isLt
  have hi1 : (i 1).val < 512 := (i 1).isLt
  have hi2 : (i 2).val < 64 := (i 2).isLt
  obtain ⟨t, ht⟩ : ∃ t : Fin cfg0.N, t.val = (i 0).val / 8 :=
    ⟨⟨(i 0).val / 8, lt_of_lt_of_eq (by omega : (i 0).val / 8 < 64) N_0.symm⟩, rfl⟩
  obtain ⟨-, -, -, -, -, -, -, -, -, -, e0, e1, e2, -⟩ := idx_moving t
  refine ⟨t, flush0_15 t, ?_⟩
  rw [mem_block15]
  intro a
  match a with
  | ⟨0, _⟩ =>
    show win0_15.index t (0 : Fin 3) * 8 ≤ (i 0).val ∧ (i 0).val < win0_15.index t (0 : Fin 3) * 8 + 8
    rw [e0]; omega
  | ⟨1, _⟩ =>
    show win0_15.index t (1 : Fin 3) * 512 ≤ (i 1).val ∧ (i 1).val < win0_15.index t (1 : Fin 3) * 512 + 512
    rw [e1]; omega
  | ⟨2, _⟩ =>
    show win0_15.index t (2 : Fin 3) * 64 ≤ (i 2).val ∧ (i 2).val < win0_15.index t (2 : Fin 3) * 64 + 64
    rw [e2]; omega

/-- An index of the array lies in point `t`'s block of output window 16 iff each coordinate lies in the block's range. -/
theorem mem_block16 (t : Fin cfg0.N) (i : S512x512x64.Idx) :
    i ∈ ((cfg0.win 16).blk t).view.set ↔ ∀ a : Fin 3, win0_16.index t a * S8x512x64.size a ≤ (i a).val
      ∧ (i a).val < win0_16.index t a * S8x512x64.size a + S8x512x64.size a := by
  show i ∈ ((View.whole main_v30_1).slice (win0_16.rect t)).set ↔ _
  rw [View.set_slice_whole, Rect.mem_set_unit]
  exact Iff.rfl

/-- Every index `(p, q, h)` of the array is in the block of point `p / 8`. -/
theorem cover16 (i : S512x512x64.Idx) :
    ∃ t : Fin cfg0.N, (cfg0.win 16).flush t = true ∧ i ∈ ((cfg0.win 16).blk t).view.set := by
  have hi0 : (i 0).val < 512 := (i 0).isLt
  have hi1 : (i 1).val < 512 := (i 1).isLt
  have hi2 : (i 2).val < 64 := (i 2).isLt
  obtain ⟨t, ht⟩ : ∃ t : Fin cfg0.N, t.val = (i 0).val / 8 :=
    ⟨⟨(i 0).val / 8, lt_of_lt_of_eq (by omega : (i 0).val / 8 < 64) N_0.symm⟩, rfl⟩
  obtain ⟨-, -, -, -, -, -, -, -, -, -, -, -, -, e0, e1, e2⟩ := idx_moving t
  refine ⟨t, flush0_16 t, ?_⟩
  rw [mem_block16]
  intro a
  match a with
  | ⟨0, _⟩ =>
    show win0_16.index t (0 : Fin 3) * 8 ≤ (i 0).val ∧ (i 0).val < win0_16.index t (0 : Fin 3) * 8 + 8
    rw [e0]; omega
  | ⟨1, _⟩ =>
    show win0_16.index t (1 : Fin 3) * 512 ≤ (i 1).val ∧ (i 1).val < win0_16.index t (1 : Fin 3) * 512 + 512
    rw [e1]; omega
  | ⟨2, _⟩ =>
    show win0_16.index t (2 : Fin 3) * 64 ≤ (i 2).val ∧ (i 2).val < win0_16.index t (2 : Fin 3) * 64 + 64
    rw [e2]; omega

/-- After the run the first output array is the hidden-state table. -/
theorem final_hidden (c : Dev nD) :
    (dats m 0 c).arrAt 15 cfg0.N = Lstm.hiddenTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 15 _ (fun t _ => flushed_hidden m c t) cover15

/-- After the run the second output array is the cell-state table. -/
theorem final_cell (c : Dev nD) :
    (dats m 0 c).arrAt 16 cfg0.N = Lstm.cellTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 16 _ (fun t _ => flushed_cell m c t) cover16

/-- Every weakly fair execution of the idealized kernel terminates with the two tables in its results and its
    arguments unchanged. -/
theorem run : θ_run defs (onTc (τ := τ) (main (F := Ideal))) ⟨m, fun _ => 0, ρ⟩ fun r => ∀ c : Dev nD,
      r.2.mem ((c : Thread nD τ).loc main_v30_0) = Lstm.hiddenTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v30_1) = Lstm.cellTable (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 15).trans (final_hidden m c),
      ((h c).1 16).trans (final_cell m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.KernelIdeal.Tables

end
-- ==== Proof.Reference.lean ====
/-
  The reference's two results are the step's tables.

  The reference flattens the table to 262144 rows (row `512·p + q` is pair `(p, q)`), computes all 256 gate
  pre-activations of a row as `((emb·Wᵢₕᵀ + bᵢₕ) + h·Wₕₕᵀ) + bₕₕ` and slices the four gates out, spells the logistic
  function as `1 / (1 + e^(−z))`, selects the new entries where the row's integer is positive, and re-shapes back.
  Each stage is read at row `512·p + q`; the biases are regrouped, `1 / (1 + e^(−z))` is `½·tanh(½·z) + ½`, and the
  selection is the blend by the row's weight — the one step that needs the overwritten entry to be a real.
-/
import proofs.«108195_g16716012716121_cont_week2b_1010_5_alg».proof.Proof.Gen.ReferenceIdeal.Read
import proofs.«108195_g16716012716121_cont_week2b_1010_5_alg».proof.Proof.LstmTable
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The flattened table's row of pair `(p, q)`. -/
abbrev rowN (p q : Fin 512) : Fin 262144 := ⟨p.val * 512 + q.val, by have := p.isLt; have := q.isLt; omega⟩

/-- The host's `1 / (1 + e^(−z))`, the ones spelt as the word `0x3F800000`, is `½·tanh(½·z) + ½`. -/
theorem host_logistic (z : EReal) :
    FloatOps.hostDivf (F := Ideal) (φ := .f32) (FloatOps.ofBits .f32 0x3F800000#32)
      (FloatOps.addf (F := Ideal) (φ := .f32) (FloatOps.ofBits .f32 0x3F800000#32)
        (FloatOps.hostUnary (F := Ideal) (φ := .f32) .exp (FloatOps.hostNegf (F := Ideal) (φ := .f32) z)))
      = Lstm.sg z := by
  rw [Lstm.sg_eq_logistic]
  show Ideal.div (Ideal.ofBits .f32 0x3F800000#32) (Ideal.ofBits .f32 0x3F800000#32 + Ideal.exp (-z)) = _
  rw [Lstm.one_f32]
  rfl

section Stages
variable (x0 : (⟨S512x512x2, .f32⟩ : BufTy).Contents (Elt Ideal)) (x1 x2 : (⟨S512x512x64, .f32⟩ : BufTy).Contents (Elt Ideal))
  (x3 : (⟨S512x512, .i32⟩ : BufTy).Contents (Elt Ideal)) (x4 : (⟨S32x2, .f32⟩ : BufTy).Contents (Elt Ideal))
  (x5 : (⟨S32, .f32⟩ : BufTy).Contents (Elt Ideal)) (x6 : (⟨S256x32, .f32⟩ : BufTy).Contents (Elt Ideal))
  (x7 : (⟨S256x64, .f32⟩ : BufTy).Contents (Elt Ideal)) (x8 x9 : (⟨S256, .f32⟩ : BufTy).Contents (Elt Ideal))

/-- The embedded pair of row `(p, q)`. -/
theorem emb_stage (p q : Fin 512) (e : Fin 32) :
    val_main_v11 (F := Ideal) x0 x4 x5 (ix2 (rowN p q) e)
      = Lstm.emb (fun k => x0 (ix3 p q k)) (fun k e => x4 (ix2 e k)) (fun e => x5 (ix1 e)) e := by
  rw [val_main_v11_apply, val_main_v10_apply, val_main_v7_apply, val_main_v9_apply, val_main_v8_apply,
    val_main_call0_v0_apply, val_main_call0_cst_apply]
  have i0 : ∀ k : Fin 2, idx_main_v3 (lidx_main_v7 (ix2 (rowN p q) e) k) = ix3 p q k := fun k => by
    have := p.isLt; have := q.isLt; have := k.isLt
    funext a; apply Fin.ext
    match a with
    | ⟨0, _⟩ => show ((p.val * 512 + q.val) * 2 + k.val) / 1024 = p.val; omega
    | ⟨1, _⟩ => show ((p.val * 512 + q.val) * 2 + k.val) / 2 % 512 = q.val; omega
    | ⟨2, _⟩ => show ((p.val * 512 + q.val) * 2 + k.val) % 2 = k.val; omega
  have i1 : ∀ k : Fin 2, idx_main_v6 (ridx_main_v7 (ix2 (rowN p q) e) k) = ix2 e k := fun k => by
    funext a; apply Fin.ext
    match a with
    | ⟨0, _⟩ => rfl
    | ⟨1, _⟩ => rfl
  have i2 : idx_main_v8 (idx_main_v9 (ix2 (rowN p q) e)) = ix1 e := by
    funext a; apply Fin.ext
    match a with
    | ⟨0, _⟩ => rfl
  simp only [val_main_v3_apply, val_main_v6_apply, i0, i1, i2]
  show max ((∑ k : Fin 2, (x0 (ix3 p q k) : EReal) * (x4 (ix2 e k) : EReal)) + (x5 (ix1 e) : EReal)) (Ideal.ofBits .f32 0x00000000#32) = _
  rw [Ideal.ofBits_zero_f32]
  rfl

/-- Pre-activation `g` (of 256) of row `(p, q)`, its two biases grouped together. -/
theorem gates_stage (p q : Fin 512) (g : Fin 256) :
    val_main_v22 (F := Ideal) x0 x1 x4 x5 x6 x7 x8 x9 (ix2 (rowN p q) g)
      = Lstm.pre (Lstm.emb (fun k => x0 (ix3 p q k)) (fun k e => x4 (ix2 e k)) (fun e => x5 (ix1 e))) (fun j => x1 (ix3 p q j))
          (fun e => x6 (ix2 g e)) (fun j => x7 (ix2 g j)) + Lstm.biasSum x8 x9 g := by
  rw [val_main_v22_apply, val_main_v19_apply, val_main_v16_apply, val_main_v13_apply, val_main_v15_apply, val_main_v14_apply,
    val_main_v18_apply, val_main_v21_apply, val_main_v20_apply]
  have j0 : ∀ k : Fin 32, lidx_main_v13 (ix2 (rowN p q) g) k = ix2 (rowN p q) k := fun k => by
    funext a; apply Fin.ext
    match a with
    | ⟨0, _⟩ => rfl
    | ⟨1, _⟩ => rfl
  have j1 : ∀ k : Fin 32, idx_main_v12 (ridx_main_v13 (ix2 (rowN p q) g) k) = ix2 g k := fun k => by
    funext a; apply Fin.ext
    match a with
    | ⟨0, _⟩ => rfl
    | ⟨1, _⟩ => rfl
  have j2 : idx_main_v14 (idx_main_v15 (ix2 (rowN p q) g)) = ix1 g := by
    funext a; apply Fin.ext
    match a with
    | ⟨0, _⟩ => rfl
  have j3 : ∀ j : Fin 64, idx_main_v4 (lidx_main_v18 (ix2 (rowN p q) g) j) = ix3 p q j := fun j => by
    have := p.isLt; have := q.isLt; have := j.isLt
    funext a; apply Fin.ext
    match a with
    | ⟨0, _⟩ => show ((p.val * 512 + q.val) * 64 + j.val) / 32768 = p.val; omega
    | ⟨1, _⟩ => show ((p.val * 512 + q.val) * 64 + j.val) / 64 % 512 = q.val; omega
    | ⟨2, _⟩ => show ((p.val * 512 + q.val) * 64 + j.val) % 64 = j.val; omega
  have j4 : ∀ j : Fin 64, idx_main_v17 (ridx_main_v18 (ix2 (rowN p q) g) j) = ix2 g j := fun j => by
    funext a; apply Fin.ext
    match a with
    | ⟨0, _⟩ => rfl
    | ⟨1, _⟩ => rfl
  have j5 : idx_main_v20 (idx_main_v21 (ix2 (rowN p q) g)) = ix1 g := by
    funext a; apply Fin.ext
    match a with
    | ⟨0, _⟩ => rfl
  simp only [val_main_v12_apply, val_main_v17_apply, val_main_v4_apply, j0, j1, j2, j3, j4, j5, emb_stage]
  exact Lstm.regroup _ _ _ _

/-- The four gates' pre-activations of entry `(p, q, h)`, as the table's definition spells them. -/
abbrev Z (p q : Fin 512) (h : Fin 64) : Fin 4 → EReal :=
  Lstm.gates (Lstm.emb (fun k => x0 (ix3 p q k)) (fun k e => x4 (ix2 e k)) (fun e => x5 (ix1 e))) (fun j => x1 (ix3 p q j))
    (fun k e => x6 (ix2 (Lstm.gateIdx k h) e)) (fun k j => x7 (ix2 (Lstm.gateIdx k h) j))
    (fun k => Lstm.biasSum x8 x9 (Lstm.gateIdx k h))

theorem slice0 (p q : Fin 512) (h : Fin 64) : idx_main_v23 (ix2 (rowN p q) h) = ix2 (rowN p q) (Lstm.gateIdx 0 h) := by
  funext a; apply Fin.ext
  match a with
  | ⟨0, _⟩ => rfl
  | ⟨1, _⟩ => show h.val = 64 * 0 + h.val; omega
theorem slice1 (p q : Fin 512) (h : Fin 64) : idx_main_v24 (ix2 (rowN p q) h) = ix2 (rowN p q) (Lstm.gateIdx 1 h) := by
  funext a; apply Fin.ext
  match a with
  | ⟨0, _⟩ => rfl
  | ⟨1, _⟩ => show 64 + h.val = 64 * 1 + h.val; omega
theorem slice2 (p q : Fin 512) (h : Fin 64) : idx_main_v25 (ix2 (rowN p q) h) = ix2 (rowN p q) (Lstm.gateIdx 2 h) := by
  funext a; apply Fin.ext
  match a with
  | ⟨0, _⟩ => rfl
  | ⟨1, _⟩ => show 128 + h.val = 64 * 2 + h.val; omega
theorem slice3 (p q : Fin 512) (h : Fin 64) : idx_main_v26 (ix2 (rowN p q) h) = ix2 (rowN p q) (Lstm.gateIdx 3 h) := by
  funext a; apply Fin.ext
  match a with
  | ⟨0, _⟩ => rfl
  | ⟨1, _⟩ => show 192 + h.val = 64 * 3 + h.val; omega

theorem input_stage (p q : Fin 512) (h : Fin 64) :
    val_main_v32 (F := Ideal) x0 x1 x4 x5 x6 x7 x8 x9 (ix2 (rowN p q) h) = Lstm.sg (Z x0 x1 x4 x5 x6 x7 x8 x9 p q h 0) := by
  rw [val_main_v32_apply, val_main_v31_apply, val_main_cst_0_apply, val_main_v30_apply, val_main_v29_apply, val_main_cst_apply,
    val_main_v28_apply, val_main_v27_apply, val_main_v23_apply, slice0, gates_stage]
  exact host_logistic _

theorem forget_stage (p q : Fin 512) (h : Fin 64) :
    val_main_v38 (F := Ideal) x0 x1 x4 x5 x6 x7 x8 x9 (ix2 (rowN p q) h) = Lstm.sg (Z x0 x1 x4 x5 x6 x7 x8 x9 p q h 1) := by
  rw [val_main_v38_apply, val_main_v37_apply, val_main_cst_2_apply, val_main_v36_apply, val_main_v35_apply, val_main_cst_1_apply,
    val_main_v34_apply, val_main_v33_apply, val_main_v24_apply, slice1, gates_stage]
  exact host_logistic _

theorem candidate_stage (p q : Fin 512) (h : Fin 64) :
    val_main_v39 (F := Ideal) x0 x1 x4 x5 x6 x7 x8 x9 (ix2 (rowN p q) h) = Ideal.tanh (Z x0 x1 x4 x5 x6 x7 x8 x9 p q h 2) := by
  rw [val_main_v39_apply, val_main_v25_apply, slice2, gates_stage]
  rfl

theorem output_stage (p q : Fin 512) (h : Fin 64) :
    val_main_v45 (F := Ideal) x0 x1 x4 x5 x6 x7 x8 x9 (ix2 (rowN p q) h) = Lstm.sg (Z x0 x1 x4 x5 x6 x7 x8 x9 p q h 3) := by
  rw [val_main_v45_apply, val_main_v44_apply, val_main_cst_4_apply, val_main_v43_apply, val_main_v42_apply, val_main_cst_3_apply,
    val_main_v41_apply, val_main_v40_apply, val_main_v26_apply, slice3, gates_stage]
  exact host_logistic _

theorem unflatten64 (p q : Fin 512) (h : Fin 64) : idx_main_v5 (ix2 (rowN p q) h) = ix3 p q h := by
  have := p.isLt; have := q.isLt; have := h.isLt
  funext a; apply Fin.ext
  match a with
  | ⟨0, _⟩ => show ((p.val * 512 + q.val) * 64 + h.val) / 32768 = p.val; omega
  | ⟨1, _⟩ => show ((p.val * 512 + q.val) * 64 + h.val) / 64 % 512 = q.val; omega
  | ⟨2, _⟩ => show ((p.val * 512 + q.val) * 64 + h.val) % 64 = h.val; omega

theorem unflatten64' (p q : Fin 512) (h : Fin 64) : idx_main_v4 (ix2 (rowN p q) h) = ix3 p q h := unflatten64 p q h

/-- The new cell entry of `(p, q, h)`. -/
theorem cell_stage (p q : Fin 512) (h : Fin 64) :
    val_main_v48 (F := Ideal) x0 x1 x2 x4 x5 x6 x7 x8 x9 (ix2 (rowN p q) h)
      = Lstm.cellNew (Z x0 x1 x4 x5 x6 x7 x8 x9 p q h) (x2 (ix3 p q h)) := by
  rw [val_main_v48_apply, val_main_v46_apply, val_main_v47_apply, forget_stage, input_stage, candidate_stage, val_main_v5_apply,
    unflatten64]
  rfl

/-- The new hidden entry of `(p, q, h)`. -/
theorem hidden_stage (p q : Fin 512) (h : Fin 64) :
    val_main_v50 (F := Ideal) x0 x1 x2 x4 x5 x6 x7 x8 x9 (ix2 (rowN p q) h)
      = Lstm.hiddenNew (Z x0 x1 x4 x5 x6 x7 x8 x9 p q h) (x2 (ix3 p q h)) := by
  rw [val_main_v50_apply, val_main_v45_apply, val_main_v49_apply, cell_stage]
  rw [← val_main_v45_apply, output_stage]
  rfl

theorem flatten64 (p q : Fin 512) (h : Fin 64) : idx_main_v53 (ix3 p q h) = ix2 (rowN p q) h := by
  have := p.isLt; have := q.isLt; have := h.isLt
  funext a; apply Fin.ext
  match a with
  | ⟨0, _⟩ => show ((p.val * 512 + q.val) * 64 + h.val) / 64 = p.val * 512 + q.val; omega
  | ⟨1, _⟩ => show ((p.val * 512 + q.val) * 64 + h.val) % 64 = h.val; omega

theorem flatten64' (p q : Fin 512) (h : Fin 64) : idx_main_v55 (ix3 p q h) = ix2 (rowN p q) h := flatten64 p q h

theorem mask_index1 (p q : Fin 512) (h : Fin 64) :
    idx_main_v0 (idx_main_v51 (idx_main_call1_v0 (ix2 (rowN p q) h))) = ix2 p q := by
  have := p.isLt; have := q.isLt
  funext a; apply Fin.ext
  match a with
  | ⟨0, _⟩ => show (p.val * 512 + q.val) / 512 = p.val; omega
  | ⟨1, _⟩ => show (p.val * 512 + q.val) % 512 = q.val; omega

theorem mask_index2 (p q : Fin 512) (h : Fin 64) :
    idx_main_v0 (idx_main_v51 (idx_main_call2_v0 (ix2 (rowN p q) h))) = ix2 p q := mask_index1 p q h

/-- THE FIRST RESULT is the hidden-state table, when every hidden entry of the argument is a real. -/
theorem hidden_eq (hfin : ∀ j, ∃ r : ℝ, x1 j = (r : EReal)) :
    val_main_v53 (F := Ideal) x0 x1 x2 x3 x4 x5 x6 x7 x8 x9 = Lstm.hiddenTable x0 x1 x2 x3 x4 x5 x6 x7 x8 x9 := by
  funext i
  obtain ⟨p, q, h, rfl⟩ : ∃ (p q : Fin 512) (h : Fin 64), i = ix3 p q h := ⟨i 0, i 1, i 2, eq_ix3 i⟩
  rw [val_main_v53_apply, flatten64, val_main_v52_apply, hidden_stage, val_main_v4_apply, unflatten64', val_main_call1_v0_apply,
    val_main_v51_apply, val_main_v2_apply, val_main_v0_apply, val_main_v1_apply, val_main_c_apply, mask_index1]
  exact (Lstm.blend_select _ _ _ _ Lstm.one_bf16 (hfin _)).symm

/-- THE SECOND RESULT is the cell-state table, when every cell entry of the argument is a real. -/
theorem cell_eq (hfin : ∀ j, ∃ r : ℝ, x2 j = (r : EReal)) :
    val_main_v55 (F := Ideal) x0 x1 x2 x3 x4 x5 x6 x7 x8 x9 = Lstm.cellTable x0 x1 x2 x3 x4 x5 x6 x7 x8 x9 := by
  funext i
  obtain ⟨p, q, h, rfl⟩ : ∃ (p q : Fin 512) (h : Fin 64), i = ix3 p q h := ⟨i 0, i 1, i 2, eq_ix3 i⟩
  rw [val_main_v55_apply, flatten64', val_main_v54_apply, cell_stage, val_main_v5_apply, unflatten64, val_main_call2_v0_apply,
    val_main_v51_apply, val_main_v2_apply, val_main_v0_apply, val_main_v1_apply, val_main_c_apply, mask_index2]
  exact (Lstm.blend_select _ _ _ _ Lstm.one_bf16 (hfin _)).symm

end Stages

end Cert.ReferenceIdeal.RefValue

end
-- ==== Proof.Finite.lean ====
/-
  From the precondition to real entries.

  The precondition says that, for each float argument, `|x| < +∞` holds at every entry (an `and` over all entries,
  and the ten results joined by `and`). An extended real whose absolute value is below `+∞` is a real; this is read
  off for the two state arguments, whose entries the step overwrites.
-/
import proofs.«108195_g16716012716121_cont_week2b_1010_5_alg».proof.Pre_finite_inputs
import Idealize.ShloMosaic.Lib.ReduceAll
import Idealize.ShloMosaic.Lib.ValueIdx
import Idealize.ShloMosaic.PureOps.Ideal.Laws

noncomputable section

namespace Cert.Pre_finite_inputs.Reals

open Cert.Pre_finite_inputs Idealize.ShloMosaic Idealize.ShloMosaic.ValueIdx

instance : Subsingleton S_.Idx := ⟨fun _ _ => funext fun d => d.elim0⟩

/-- An extended real with `max x (−x) < +∞` (the word `0x7F800000`) is a real. -/
theorem real_of_lt_top (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => exact absurd h (by simp [Ideal.cmp])
  | coe r => exact ⟨r, rfl⟩
  | top => exact absurd h (by simp [Ideal.cmp])

variable [hF : Cert.Pre_finite_inputs.Facts]

/-- Under the precondition every entry of the second and of the third argument (the hidden and the cell state) is a real. -/
theorem states_real (a0 : FVec Ideal S512x512x2 .f32) (a1 a2 : FVec Ideal S512x512x64 .f32) (a3 : IVec S512x512 32)
    (a4 : FVec Ideal S32x2 .f32) (a5 : FVec Ideal S32 .f32) (a6 : FVec Ideal S256x32 .f32) (a7 : FVec Ideal S256x64 .f32)
    (a8 a9 : FVec Ideal S256 .f32) (h : fn (F := Ideal) a0 a1 a2 a3 a4 a5 a6 a7 a8 a9 = fun _ => 1#1) :
    (∀ j, ∃ r : ℝ, a1 j = (r : EReal)) ∧ (∀ j, ∃ r : ℝ, a2 j = (r : EReal)) := by
  have h0 := congrFun h ix0
  dsimp only [fn, fn_part1, fn_part2] at h0
  have s9 := (IntOp.andi_eq_one.mp h0).1
  have s8 := (IntOp.andi_eq_one.mp s9).1
  have s7 := (IntOp.andi_eq_one.mp s8).1
  have s6 := (IntOp.andi_eq_one.mp s7).1
  have s5 := (IntOp.andi_eq_one.mp s6).1
  have s4 := (IntOp.andi_eq_one.mp s5).1
  have r2 := (IntOp.andi_eq_one.mp s4).2
  have r1 := (IntOp.andi_eq_one.mp (IntOp.andi_eq_one.mp s4).1).2
  refine ⟨fun j => real_of_lt_top (a1 j) ?_, fun j => real_of_lt_top (a2 j) ?_⟩
  · exact Host.reduce_andi_all _ _ _ _ ix0 r1 j
  · exact Host.reduce_andi_all _ _ _ _ ix0 r2 j

end Cert.Pre_finite_inputs.Reals

end
-- ==== Proof.lean ====
/-
  One step of a pairwise LSTM cell, row-blocked in a kernel, against its plain array program.

  Both programs update a 512×512 table of rows. Row `(p, q)` carries a coordinate pair, a hidden row and a cell row
  of 64 entries and an integer. The pair is embedded (a 2→32 affine map, clamped below at zero); the four gates'
  pre-activations are affine in the embedded row and the hidden row; with `i, f, o` logistic and `g = tanh` of their
  pre-activations the new cell row is `f·c + i·g` and the new hidden row `o·tanh(f·c + i·g)`; rows whose integer is
  positive are overwritten with the new rows, the others kept.

  The kernel walks the table in 64 blocks of 8×512 rows. It spells the logistic function as `½·tanh(½·z) + ½`, adds the
  two bias vectors before the products, takes each gate's weights as one pre-sliced block, and overwrites by
  `a + μ·(v − a)` with `μ ∈ {0, 1}` the row's mask. The array program flattens the table, spells the logistic function as
  `1 / (1 + e^(−z))`, adds the biases one after each product, slices the gates out of one 256-wide product, and
  selects.

  At the ideal values (floats as extended reals, every operation exact) both leave the same two tables:
  * `½·tanh(½·z) + ½ = 1 / (1 + e^(−z))` on the whole extended real line (Proof/LibLstmStep.lean);
  * the bias regrouping is commutativity and associativity of the sum;
  * `a + μ·(v − a)` is the selection as soon as `a` is a real — which the precondition gives for the two state
    arguments (Proof/Finite.lean); nothing else of the precondition is used.
  Proof/Body.lean reads the kernel body's arithmetic at an entry, Proof/Windows.lean the arrays the host prepares for
  its windows, Proof/Blocks.lean and Proof/KernelRun.lean go from blocks to the two tables, Proof/Reference.lean reads
  the array program's stages; here the five claims are assembled. No operation was rewritten when the kernel was
  idealized, so there is nothing to preserve.
-/
import proofs.«108195_g16716012716121_cont_week2b_1010_5_alg».proof.Defs
import proofs.«108195_g16716012716121_cont_week2b_1010_5_alg».proof.Proof.Gen.Kernel
import proofs.«108195_g16716012716121_cont_week2b_1010_5_alg».proof.Proof.Gen.Kernel.Skeleton
import proofs.«108195_g16716012716121_cont_week2b_1010_5_alg».proof.Proof.Gen.Kernel.Launch
import proofs.«108195_g16716012716121_cont_week2b_1010_5_alg».proof.Proof.Gen.Kernel.Points
import proofs.«108195_g16716012716121_cont_week2b_1010_5_alg».proof.Proof.Gen.Kernel.Frame
import proofs.«108195_g16716012716121_cont_week2b_1010_5_alg».proof.Proof.Gen.KernelIdeal
import proofs.«108195_g16716012716121_cont_week2b_1010_5_alg».proof.Proof.Gen.KernelIdeal.Skeleton
import proofs.«108195_g16716012716121_cont_week2b_1010_5_alg».proof.Proof.Gen.KernelIdeal.Launch
import proofs.«108195_g16716012716121_cont_week2b_1010_5_alg».proof.Proof.Gen.KernelIdeal.Points
import proofs.«108195_g16716012716121_cont_week2b_1010_5_alg».proof.Proof.Gen.KernelIdeal.Frame
import proofs.«108195_g16716012716121_cont_week2b_1010_5_alg».proof.Proof.Gen.ReferenceIdeal
import proofs.«108195_g16716012716121_cont_week2b_1010_5_alg».proof.Proof.Gen.ReferenceIdeal.Run
import proofs.«108195_g16716012716121_cont_week2b_1010_5_alg».proof.Proof.Gen.ReferenceIdeal.Read
import proofs.«108195_g16716012716121_cont_week2b_1010_5_alg».proof.Proof.Gen.Pre_finite_inputs
import proofs.«108195_g16716012716121_cont_week2b_1010_5_alg».proof.Proof.KernelRun
import proofs.«108195_g16716012716121_cont_week2b_1010_5_alg».proof.Proof.Reference
import proofs.«108195_g16716012716121_cont_week2b_1010_5_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the array program: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the ten arguments, the idealized kernel and the array program both end with the
    hidden-state table and the cell-state table of those arguments: the kernel by its blocks, the array program by
    its stages and the three laws, the state arguments' entries being reals under the precondition. -/
theorem algebraic : Cert.algebraic_KernelIdeal_ReferenceIdeal := by
  intro m ρ m' ρ' hpre hagree
  refine ⟨fun c => Lstm.hiddenTable (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Lstm.cellTable (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.Tables.run m ρ, ?_⟩
  refine (θ_run Cert.ReferenceIdeal.defs _ _).mono (fun r h c => ?_) (Cert.ReferenceIdeal.Value.run (F := Ideal) m' ρ')
  obtain ⟨hr1, hr2⟩ := Cert.Pre_finite_inputs.Reals.states_real _ _ _ _ _ _ _ _ _ _ (hpre c)
  obtain ⟨g0, g1, g2, g3, g4, g5, g6, g7, g8, g9⟩ := hagree c
  refine ⟨(h c).1.trans ?_, (h c).2.1.trans ?_, (h c).2.2⟩
  · rw [Cert.ReferenceIdeal.Read.val_main_v53_eq, g0, g1, g2, g3, g4, g5, g6, g7, g8, g9]
    exact Cert.ReferenceIdeal.RefValue.hidden_eq _ _ _ _ _ _ _ _ _ _ hr1
  · rw [Cert.ReferenceIdeal.Read.val_main_v55_eq, g0, g1, g2, g3, g4, g5, g6, g7, g8, g9]
    exact Cert.ReferenceIdeal.RefValue.cell_eq _ _ _ _ _ _ _ _ _ _ hr2

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
